-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S3x256x256 : Shape := ⟨3, ![3, 256, 256]⟩
abbrev S3x256 : Shape := ⟨2, ![3, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg6 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S3x256x256 .f32) (main_arg6 : FVec F S3x256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S3x256x256 : Shape := ⟨3, ![3, 256, 256]⟩
abbrev S3x256 : Shape := ⟨2, ![3, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S1x256x256 : Shape := ⟨3, ![1, 256, 256]⟩
abbrev S256x256 : Shape := ⟨2, ![256, 256]⟩
abbrev S800000x256 : Shape := ⟨2, ![800000, 256]⟩

abbrev nBuf : Space → Nat
  | .hbm => 98
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S3x256x256, .f32⟩
  | .hbm, ⟨6, _⟩ => ⟨S3x256, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S1x256, .f32⟩
  | .hbm, ⟨34, _⟩ => ⟨S50000x256, .f32⟩
  | .hbm, ⟨35, _⟩ => ⟨S1x256x256, .f32⟩
  | .hbm, ⟨36, _⟩ => ⟨S256x256, .f32⟩
  | .hbm, ⟨37, _⟩ => ⟨S1x256, .f32⟩
  | .hbm, ⟨38, _⟩ => ⟨S256, .f32⟩
  | .hbm, ⟨39, _⟩ => ⟨S50000x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S1x256, .f32⟩
  | .hbm, ⟨55, _⟩ => ⟨S50000x256, .f32⟩
  | .hbm, ⟨56, _⟩ => ⟨S1x256x256, .f32⟩
  | .hbm, ⟨57, _⟩ => ⟨S256x256, .f32⟩
  | .hbm, ⟨58, _⟩ => ⟨S1x256, .f32⟩
  | .hbm, ⟨59, _⟩ => ⟨S256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S1x256x256, .f32⟩
  | .hbm, ⟨78, _⟩ => ⟨S256x256, .f32⟩
  | .hbm, ⟨79, _⟩ => ⟨S1x256, .f32⟩
  | .hbm, ⟨80, _⟩ => ⟨S256, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S1x256, .f32⟩
  | .hbm, ⟨97, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S2000x1, .f32⟩
  | .local _ .vmem, ⟨28, _⟩ => ⟨S2000x1, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S3x256x256 : Shape := ⟨3, ![3, 256, 256]⟩
abbrev S3x256 : Shape := ⟨2, ![3, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩

abbrev nBuf : Space → Nat
  | .hbm => 122
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S3x256x256, .f32⟩
  | .hbm, ⟨6, _⟩ => ⟨S3x256, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S1x256x256, .f32⟩
  | .hbm, ⟨39, _⟩ => ⟨S256x256, .f32⟩
  | .hbm, ⟨40, _⟩ => ⟨S1x256, .f32⟩
  | .hbm, ⟨41, _⟩ => ⟨S256, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S1x256x256, .f32⟩
  | .hbm, ⟨67, _⟩ => ⟨S256x256, .f32⟩
  | .hbm, ⟨68, _⟩ => ⟨S1x256, .f32⟩
  | .hbm, ⟨69, _⟩ => ⟨S256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x256, .f32⟩
  | .hbm, ⟨81, _⟩ => ⟨S_, .f32⟩
  | .hbm, ⟨82, _⟩ => ⟨S50000x256, .f32⟩
  | .hbm, ⟨83, _⟩ => ⟨S800000x1, .i32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S1x256x256, .f32⟩
  | .hbm, ⟨95, _⟩ => ⟨S256x256, .f32⟩
  | .hbm, ⟨96, _⟩ => ⟨S1x256, .f32⟩
  | .hbm, ⟨97, _⟩ => ⟨S256, .f32⟩
  | .hbm, ⟨98, _⟩ => ⟨S50000x256, .f32⟩
  | .hbm, ⟨99, _⟩ => ⟨S50000x256, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x256, .f32⟩
  | .hbm, ⟨109, _⟩ => ⟨S_, .f32⟩
  | .hbm, ⟨110, _⟩ => ⟨S50000x256, .f32⟩
  | .hbm, ⟨111, _⟩ => ⟨S800000x1, .i32⟩
  | .hbm, ⟨112, _⟩ => ⟨S50000x256, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S1x256, .f32⟩
  | .hbm, ⟨117, _⟩ => ⟨S50000x256, .f32⟩
  | .hbm, ⟨118, _⟩ => ⟨S50000x256, .f32⟩
  | .hbm, ⟨119, _⟩ => ⟨S_, .f32⟩
  | .hbm, ⟨120, _⟩ => ⟨S50000x256, .f32⟩
  | .hbm, ⟨121, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call2_cst : Ref sig .tc := ⟨.hbm, 91, rfl⟩
abbrev main_call2_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_11 : Ref sig .tc := ⟨.hbm, 100, rfl⟩
abbrev main_v74 : Ref sig .tc := ⟨.hbm, 101, rfl⟩
abbrev main_v75 : Ref sig .tc := ⟨.hbm, 102, rfl⟩
abbrev main_c_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call3_cst : Ref sig .tc := ⟨.hbm, 119, rfl⟩
abbrev main_call3_v0 : Ref sig .tc := ⟨.hbm, 120, rfl⟩
abbrev main_v90 : Ref sig .tc := ⟨.hbm, 121, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S50000x1_S50000x256_0_1 : S50000x1.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run with its result named: every weakly fair execution of @main terminates with
  the result buffer at what the last region's write-backs leave (the last boundary's contents), the arguments as
  launched. The launch over @main's eight segments — four stretches of host operations, four pipelined regions — is the
  frame's; what is kept of the final state here is one buffer more.
-/
import proofs.«150012_j26792005992869_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the last thread state holds every unscoped buffer at the last boundary's contents; read against the final
    state, the result buffer is there among them, and each argument walks back to the launch memory. -/
theorem run_final : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.HostGlue.lean ====
/-
  The host side of the graph network, as functions of arrays, and each stretch of @main's host operations read at a
  buffer for an ARBITRARY contents of the buffers before it.

  `degreeNorm idx` is the column max(deg, 1)^(-1/2), deg the number of edges with that endpoint (a scatter-add of ones);
  `aggregate h ns src dst` gathers the rows of h · ns at the edges' sources (a negative index wrapped by the array's
  length) and adds them up at the edges' targets; `weightOf k`, `biasOf k` cut layer k's matrix and bias vector out of the
  stacked parameters. Nothing here opens a gather or a scatter: both programs apply these same functions.
-/
import proofs.«150012_j26792005992869_1_alg».proof.Proof.Gen.KernelIdeal.Launch
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- max(degree, 1)^(-1/2) as a column: the degree of node n counts the edges whose endpoint `idx` is n. -/
def degreeNorm (idx : (⟨S800000, .i32⟩ : BufTy).Contents (Elt F)) : (⟨S50000x1, .f32⟩ : BufTy).Contents (Elt F) :=
  broadcastInDim S50000x1 ![0] bcast_S50000_S50000x1_0
    (Host.powf
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 idx)
          (broadcastInDim S800000 ![] bcast_S_S800000 (constant S_ .f32 0x3F800000#32)))
        (broadcastInDim S50000 ![] bcast_S_S50000 (constant S_ .f32 0x3F800000#32)))
      (broadcastInDim S50000 ![] bcast_S_S50000 (constant S_ .f32 0xBF000000#32)))

/-- The messages h · ns gathered along the edges' sources and summed at the edges' targets. -/
def aggregate (h : (⟨S50000x256, .f32⟩ : BufTy).Contents (Elt F)) (ns : (⟨S50000x1, .f32⟩ : BufTy).Contents (Elt F))
    (src dst : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256
      (mulf h (broadcastInDim S50000x256 ![0, 1] bcast_S50000x1_S50000x256_0_1 ns))
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The encoder's scale: the constant-one column. -/
def onesCol : (⟨S50000x1, .f32⟩ : BufTy).Contents (Elt F) :=
  broadcastInDim S50000x1 ![] bcast_S_S50000x1 (constant S_ .f32 0x3F800000#32)

/-- A bias vector laid out as a row. -/
def asRow (b : (⟨S256, .f32⟩ : BufTy).Contents (Elt F)) : (⟨S1x256, .f32⟩ : BufTy).Contents (Elt F) := shapeCast S1x256 b shapeCasts_S256_S1x256

/-- Layer 0's weight matrix and bias vector out of the stacked parameters. -/
def weightOf0 (cw : (⟨S3x256x256, .f32⟩ : BufTy).Contents (Elt F)) : (⟨S256x256, .f32⟩ : BufTy).Contents (Elt F) :=
  shapeCast S256x256 (extractStridedSlice S1x256x256 ![0, 0, 0] cw slices_S3x256x256_S1x256x256_0_0_0) shapeCasts_S1x256x256_S256x256
def biasOf0 (cb : (⟨S3x256, .f32⟩ : BufTy).Contents (Elt F)) : (⟨S256, .f32⟩ : BufTy).Contents (Elt F) :=
  shapeCast S256 (extractStridedSlice S1x256 ![0, 0] cb slices_S3x256_S1x256_0_0) shapeCasts_S1x256_S256

/-- Layer 1's weight matrix and bias vector out of the stacked parameters. -/
def weightOf1 (cw : (⟨S3x256x256, .f32⟩ : BufTy).Contents (Elt F)) : (⟨S256x256, .f32⟩ : BufTy).Contents (Elt F) :=
  shapeCast S256x256 (extractStridedSlice S1x256x256 ![1, 0, 0] cw slices_S3x256x256_S1x256x256_1_0_0) shapeCasts_S1x256x256_S256x256
def biasOf1 (cb : (⟨S3x256, .f32⟩ : BufTy).Contents (Elt F)) : (⟨S256, .f32⟩ : BufTy).Contents (Elt F) :=
  shapeCast S256 (extractStridedSlice S1x256 ![1, 0] cb slices_S3x256_S1x256_1_0) shapeCasts_S1x256_S256

/-- Layer 2's weight matrix and bias vector out of the stacked parameters. -/
def weightOf2 (cw : (⟨S3x256x256, .f32⟩ : BufTy).Contents (Elt F)) : (⟨S256x256, .f32⟩ : BufTy).Contents (Elt F) :=
  shapeCast S256x256 (extractStridedSlice S1x256x256 ![2, 0, 0] cw slices_S3x256x256_S1x256x256_2_0_0) shapeCasts_S1x256x256_S256x256
def biasOf2 (cb : (⟨S3x256, .f32⟩ : BufTy).Contents (Elt F)) : (⟨S256, .f32⟩ : BufTy).Contents (Elt F) :=
  shapeCast S256 (extractStridedSlice S1x256 ![2, 0] cb slices_S3x256_S1x256_2_0) shapeCasts_S1x256_S256

variable (W : Valuation τ sig (Elt F))

/-! ## The first stretch: the two norms, the encoder's scale and bias row -/

theorem pre_normSrc : after hostOps0 W (Proc.devRef .tc main_v11) = degreeNorm (W (Proc.devRef .tc main_arg1)) := by
  after_results <;> rfl
theorem pre_normDst : after hostOps0 W (Proc.devRef .tc main_v16) = degreeNorm (W (Proc.devRef .tc main_arg2)) := by
  after_results <;> rfl
theorem pre_ones : after hostOps0 W (Proc.devRef .tc main_v17) = onesCol := by
  after_results <;> rfl
theorem pre_biasRow : after hostOps0 W (Proc.devRef .tc main_v18) = asRow (W (Proc.devRef .tc main_arg4)) := by
  after_results <;> rfl
theorem pre_keeps_main_arg0 : after hostOps0 W (Proc.devRef .tc main_arg0) = W (Proc.devRef .tc main_arg0) := by
  after_results <;> rfl
theorem pre_keeps_main_arg1 : after hostOps0 W (Proc.devRef .tc main_arg1) = W (Proc.devRef .tc main_arg1) := by
  after_results <;> rfl
theorem pre_keeps_main_arg2 : after hostOps0 W (Proc.devRef .tc main_arg2) = W (Proc.devRef .tc main_arg2) := by
  after_results <;> rfl
theorem pre_keeps_main_arg3 : after hostOps0 W (Proc.devRef .tc main_arg3) = W (Proc.devRef .tc main_arg3) := by
  after_results <;> rfl
theorem pre_keeps_main_arg5 : after hostOps0 W (Proc.devRef .tc main_arg5) = W (Proc.devRef .tc main_arg5) := by
  after_results <;> rfl
theorem pre_keeps_main_arg6 : after hostOps0 W (Proc.devRef .tc main_arg6) = W (Proc.devRef .tc main_arg6) := by
  after_results <;> rfl

/-! ## The stretch before region 1: the aggregate of the previous layer's output, layer 0's parameters -/

set_option maxHeartbeats 2000000 in
theorem mid1_aggregate : after hostOps1 W (Proc.devRef .tc main_v35)
    = aggregate (W (Proc.devRef .tc main_v19)) (W (Proc.devRef .tc main_v11)) (W (Proc.devRef .tc main_arg1)) (W (Proc.devRef .tc main_arg2)) := by
  after_results_simp <;> rfl
theorem mid1_weight : after hostOps1 W (Proc.devRef .tc main_v21) = weightOf0 (W (Proc.devRef .tc main_arg5)) := by
  after_results <;> rfl
theorem mid1_biasRow : after hostOps1 W (Proc.devRef .tc main_v36) = asRow (biasOf0 (W (Proc.devRef .tc main_arg6))) := by
  after_results <;> rfl
theorem mid1_keeps_main_v11 : after hostOps1 W (Proc.devRef .tc main_v11) = W (Proc.devRef .tc main_v11) := by
  after_results <;> rfl
theorem mid1_keeps_main_v16 : after hostOps1 W (Proc.devRef .tc main_v16) = W (Proc.devRef .tc main_v16) := by
  after_results <;> rfl
theorem mid1_keeps_main_arg1 : after hostOps1 W (Proc.devRef .tc main_arg1) = W (Proc.devRef .tc main_arg1) := by
  after_results <;> rfl
theorem mid1_keeps_main_arg2 : after hostOps1 W (Proc.devRef .tc main_arg2) = W (Proc.devRef .tc main_arg2) := by
  after_results <;> rfl
theorem mid1_keeps_main_arg5 : after hostOps1 W (Proc.devRef .tc main_arg5) = W (Proc.devRef .tc main_arg5) := by
  after_results <;> rfl
theorem mid1_keeps_main_arg6 : after hostOps1 W (Proc.devRef .tc main_arg6) = W (Proc.devRef .tc main_arg6) := by
  after_results <;> rfl

/-! ## The stretch before region 2: the aggregate of the previous layer's output, layer 1's parameters -/

set_option maxHeartbeats 2000000 in
theorem mid2_aggregate : after hostOps2 W (Proc.devRef .tc main_v53)
    = aggregate (W (Proc.devRef .tc main_v37)) (W (Proc.devRef .tc main_v11)) (W (Proc.devRef .tc main_arg1)) (W (Proc.devRef .tc main_arg2)) := by
  after_results_simp <;> rfl
theorem mid2_weight : after hostOps2 W (Proc.devRef .tc main_v39) = weightOf1 (W (Proc.devRef .tc main_arg5)) := by
  after_results <;> rfl
theorem mid2_biasRow : after hostOps2 W (Proc.devRef .tc main_v54) = asRow (biasOf1 (W (Proc.devRef .tc main_arg6))) := by
  after_results <;> rfl
theorem mid2_keeps_main_v11 : after hostOps2 W (Proc.devRef .tc main_v11) = W (Proc.devRef .tc main_v11) := by
  after_results <;> rfl
theorem mid2_keeps_main_v16 : after hostOps2 W (Proc.devRef .tc main_v16) = W (Proc.devRef .tc main_v16) := by
  after_results <;> rfl
theorem mid2_keeps_main_arg1 : after hostOps2 W (Proc.devRef .tc main_arg1) = W (Proc.devRef .tc main_arg1) := by
  after_results <;> rfl
theorem mid2_keeps_main_arg2 : after hostOps2 W (Proc.devRef .tc main_arg2) = W (Proc.devRef .tc main_arg2) := by
  after_results <;> rfl
theorem mid2_keeps_main_arg5 : after hostOps2 W (Proc.devRef .tc main_arg5) = W (Proc.devRef .tc main_arg5) := by
  after_results <;> rfl
theorem mid2_keeps_main_arg6 : after hostOps2 W (Proc.devRef .tc main_arg6) = W (Proc.devRef .tc main_arg6) := by
  after_results <;> rfl

/-! ## The stretch before region 3: the aggregate of the previous layer's output, layer 2's parameters -/

set_option maxHeartbeats 2000000 in
theorem mid3_aggregate : after hostOps3 W (Proc.devRef .tc main_v71)
    = aggregate (W (Proc.devRef .tc main_v55)) (W (Proc.devRef .tc main_v11)) (W (Proc.devRef .tc main_arg1)) (W (Proc.devRef .tc main_arg2)) := by
  after_results_simp <;> rfl
theorem mid3_weight : after hostOps3 W (Proc.devRef .tc main_v57) = weightOf2 (W (Proc.devRef .tc main_arg5)) := by
  after_results <;> rfl
theorem mid3_biasRow : after hostOps3 W (Proc.devRef .tc main_v72) = asRow (biasOf2 (W (Proc.devRef .tc main_arg6))) := by
  after_results <;> rfl
theorem mid3_keeps_main_v11 : after hostOps3 W (Proc.devRef .tc main_v11) = W (Proc.devRef .tc main_v11) := by
  after_results <;> rfl
theorem mid3_keeps_main_v16 : after hostOps3 W (Proc.devRef .tc main_v16) = W (Proc.devRef .tc main_v16) := by
  after_results <;> rfl
theorem mid3_keeps_main_arg1 : after hostOps3 W (Proc.devRef .tc main_arg1) = W (Proc.devRef .tc main_arg1) := by
  after_results <;> rfl
theorem mid3_keeps_main_arg2 : after hostOps3 W (Proc.devRef .tc main_arg2) = W (Proc.devRef .tc main_arg2) := by
  after_results <;> rfl
theorem mid3_keeps_main_arg5 : after hostOps3 W (Proc.devRef .tc main_arg5) = W (Proc.devRef .tc main_arg5) := by
  after_results <;> rfl
theorem mid3_keeps_main_arg6 : after hostOps3 W (Proc.devRef .tc main_arg6) = W (Proc.devRef .tc main_arg6) := by
  after_results <;> rfl

end Cert.KernelIdeal.Glue

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibPlainDot.lean ====
/-
  A plain matrix product on the host, read at an index over the extended reals.
-/
import Idealize.ShloMosaic.PureOps.Ideal.Laws
import Idealize.ShloMosaic.Lib.ValueIdx
import Idealize.ShloMosaic.Lib.Pipeline.Value

noncomputable section

namespace Idealize.ShloMosaic.PlainDot

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals the host's plain matrix product is, at row `p` and column `q`, the sum over the contracted
    coordinate `k` of the left operand at `(p, k)` times the right operand at `(k, q)`, whatever the precision. -/
theorem dotGeneral_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (dims wf) prec lhs rhs (ix2 p q) = ∑ k : Fin K, lhs (ix2 p k) * rhs (ix2 k q) := by
  simp only [Host.dotGeneral]
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainDot

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibLiterals.lean ====
/-
  The float literals the two programs spell, as the extended reals their bit patterns denote:
  0, 1, 50000, 100000, -1/2, and the stabiliser 10995116 · 2⁻⁴⁰ (the binary32 nearest to 10⁻⁵).
-/
import Idealize.ShloMosaic.PureOps.Ideal

noncomputable section

namespace Cert.Bridge

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- Sign 0, exponent 142 - 127 = 15, significand 1 + 4411392 / 2²³: 2¹⁵ · 1.52587890625 = 50000. -/
theorem ofBits_50000 : Ideal.ofBits .f32 0x47435000#32 = ((50000 : ℝ) : EReal) := by
  simp [Ideal.ofBits, Ideal.ieee, -EReal.coe_mul]; norm_num

theorem ofBits_50000_nat : Ideal.ofBits .f32 0x47435000#32 = (((50000 : ℕ) : ℝ) : EReal) := by
  rw [ofBits_50000]; norm_num

/-- Sign 0, exponent 143 - 127 = 16, the same significand: 2¹⁶ · 1.52587890625 = 100000. -/
theorem ofBits_100000 : Ideal.ofBits .f32 0x47C35000#32 = ((100000 : ℝ) : EReal) := by
  simp [Ideal.ofBits, Ideal.ieee, -EReal.coe_mul]; norm_num

theorem ofBits_100000_nat : Ideal.ofBits .f32 0x47C35000#32 = (((100000 : ℕ) : ℝ) : EReal) := by
  rw [ofBits_100000]; norm_num

theorem ofBits_neg_half : Ideal.ofBits .f32 0xBF000000#32 = ((-1/2 : ℝ) : EReal) := by
  simp [Ideal.ofBits, Ideal.ieee, -EReal.coe_mul]; norm_num

/-- Sign 0, exponent 110 - 127 = -17, significand (2²³ + 2606508) / 2²³: the value 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

theorem ofBits_eps_pos : ∃ r : ℝ, 0 < r ∧ Ideal.ofBits .f32 0x3727C5AC#32 = (r : EReal) :=
  ⟨_, by positivity, ofBits_eps⟩

end Cert.Bridge

end
-- ==== Proof.LinearSpec.lean ====
/-
  One fused linear layer over the extended reals: out(p, q) = max((∑ₖ a(p, k) · w(k, q)) · s(p) + b(q), 0),
  with a row scale `s` kept as a column [N, 1] and a bias `b` kept as a row [1, M].

  Three readings of it meet here. A kernel body computes it on a block of rows with a matrix unit fed narrowed
  operands (narrowing is the identity on extended reals) and vector broadcasts of the column and the row. The
  host reference computes it on the whole array with a dot product and `broadcast_in_dim`s, and, for the encoder,
  without the scale: there the kernel's scale is the constant 1, and x · 1 = x on every extended real.
-/
import proofs.«150012_j26792005992869_1_alg».proof.Proof.LibPlainMatmul
import proofs.«150012_j26792005992869_1_alg».proof.Proof.LibPlainDot
import proofs.«150012_j26792005992869_1_alg».proof.Proof.LibLayoutIx
import proofs.«150012_j26792005992869_1_alg».proof.Proof.LibRowReduce
import proofs.«150012_j26792005992869_1_alg».proof.Proof.LibLiterals
import Idealize.ShloMosaic.Lib.ValueLayout

noncomputable section

namespace Cert.FusedLinear

open Idealize.ShloMosaic Idealize.ShloMosaic.ValueIdx

variable {N K M : Nat}

/-- One entry of the layer: row `p` of `a` against column `q` of `w`, scaled by the row's factor, shifted by the
    column's bias, clamped below at the zero word's value. -/
def entry (a : FVec Ideal ⟨2, ![N, K]⟩ .f32) (w : FVec Ideal ⟨2, ![K, M]⟩ .f32) (s : FVec Ideal ⟨2, ![N, 1]⟩ .f32)
    (b : FVec Ideal ⟨2, ![1, M]⟩ .f32) (p : Fin N) (q : Fin M) : EReal :=
  max ((∑ k : Fin K, a (ix2 p k) * w (ix2 k q)) * s (ix2 p (0 : Fin 1)) + b (ix2 (0 : Fin 1) q))
    (Ideal.ofBits .f32 0x00000000#32)

/-- The layer as one function of its four operands. -/
def layer (a : FVec Ideal ⟨2, ![N, K]⟩ .f32) (w : FVec Ideal ⟨2, ![K, M]⟩ .f32) (s : FVec Ideal ⟨2, ![N, 1]⟩ .f32)
    (b : FVec Ideal ⟨2, ![1, M]⟩ .f32) : FVec Ideal ⟨2, ![N, M]⟩ .f32 :=
  fun j => entry a w s b (j 0) (j 1)

theorem layer_apply (a : FVec Ideal ⟨2, ![N, K]⟩ .f32) (w : FVec Ideal ⟨2, ![K, M]⟩ .f32) (s : FVec Ideal ⟨2, ![N, 1]⟩ .f32)
    (b : FVec Ideal ⟨2, ![1, M]⟩ .f32) (p : Fin N) (q : Fin M) : layer a w s b (ix2 p q) = entry a w s b p q := rfl

/-- An entry depends on its operands only through row `p` of `a`, column `q` of `w`, and the two entries `s(p)`, `b(q)`:
    a block of rows computes the entries of its rows. -/
theorem entry_congr {N' : Nat} (a : FVec Ideal ⟨2, ![N, K]⟩ .f32) (w : FVec Ideal ⟨2, ![K, M]⟩ .f32) (s : FVec Ideal ⟨2, ![N, 1]⟩ .f32)
    (b : FVec Ideal ⟨2, ![1, M]⟩ .f32) (a' : FVec Ideal ⟨2, ![N', K]⟩ .f32) (w' : FVec Ideal ⟨2, ![K, M]⟩ .f32)
    (s' : FVec Ideal ⟨2, ![N', 1]⟩ .f32) (b' : FVec Ideal ⟨2, ![1, M]⟩ .f32) (p : Fin N) (p' : Fin N') (q : Fin M)
    (ha : ∀ k : Fin K, a (ix2 p k) = a' (ix2 p' k)) (hw : ∀ k : Fin K, w (ix2 k q) = w' (ix2 k q))
    (hs : s (ix2 p (0 : Fin 1)) = s' (ix2 p' (0 : Fin 1))) (hb : b (ix2 (0 : Fin 1) q) = b' (ix2 (0 : Fin 1) q)) :
    entry a w s b p q = entry a' w' s' b' p' q := by
  unfold entry
  rw [hs, hb, Finset.sum_congr rfl fun k _ => by rw [ha k, hw k]]

/-- THE KERNEL BODY at an entry of its block: the matrix unit's product of the narrowed operands into a zero
    accumulator, times the column spread over the lanes, plus the row spread over the sublanes, clamped at zero. -/
theorem body_apply (wf : DotDims.WF ⟨2, ![N, K]⟩ ⟨2, ![K, M]⟩ ⟨2, ![N, M]⟩ [1] [0] [0] [1] [] [])
    (hs : (⟨2, ![N, 1]⟩ : Shape).Broadcasts ⟨2, ![N, M]⟩) (hb : (⟨2, ![1, M]⟩ : Shape).Broadcasts ⟨2, ![N, M]⟩)
    (hn : FTy.bf16.bits < FTy.f32.bits)
    (a : FVec Ideal ⟨2, ![N, K]⟩ .f32) (w : FVec Ideal ⟨2, ![K, M]⟩ .f32) (s : FVec Ideal ⟨2, ![N, 1]⟩ .f32)
    (b : FVec Ideal ⟨2, ![1, M]⟩ .f32) (p : Fin N) (q : Fin M) :
    maximumf (addf (mulf (matmul (PlainMatmul.dims wf) none (truncf .bf16 a hn) (truncf .bf16 w hn)
        (constant ⟨2, ![N, M]⟩ .f32 0x00000000#32)) (broadcastTo ⟨2, ![N, M]⟩ s hs)) (broadcastTo ⟨2, ![N, M]⟩ b hb))
      (broadcast ⟨2, ![N, M]⟩ (Scalar.ofBits (F := Ideal) .f32 0x00000000#32)) (ix2 p q) = entry a w s b p q := by
  rw [maximumf_apply, addf_apply, mulf_apply, broadcast_apply]
  rw [RowReduce.broadcastTo_a1_ab_apply s hs p q, broadcastTo_1b_ab_apply b hb p q]
  refine congrArg (fun x => max (x * s (ix2 p (0 : Fin 1)) + b (ix2 (0 : Fin 1) q)) _) ?_
  exact PlainMatmul.matmul_zero_apply wf none (truncf .bf16 a hn) (truncf .bf16 w hn) p q

/-- THE HOST REFERENCE'S LAYER is the layer: its dot product, times the column broadcast along the rows, plus the row
    broadcast along the columns, clamped at the broadcast zero. -/
theorem host_layer (wf : DotDims.WF ⟨2, ![N, K]⟩ ⟨2, ![K, M]⟩ ⟨2, ![N, M]⟩ [1] [0] [0] [1] [] [])
    (hs : (⟨2, ![N, 1]⟩ : Shape).BroadcastsInDim ⟨2, ![N, M]⟩ ![0, 1])
    (hb : (⟨2, ![1, M]⟩ : Shape).BroadcastsInDim ⟨2, ![N, M]⟩ ![0, 1])
    (hz : (⟨0, ![]⟩ : Shape).BroadcastsInDim ⟨2, ![N, M]⟩ ![])
    (a : FVec Ideal ⟨2, ![N, K]⟩ .f32) (w : FVec Ideal ⟨2, ![K, M]⟩ .f32) (s : FVec Ideal ⟨2, ![N, 1]⟩ .f32)
    (b : FVec Ideal ⟨2, ![1, M]⟩ .f32) :
    maximumf (addf (mulf (Host.dotGeneral (PlainDot.dims wf) none a w) (broadcastInDim ⟨2, ![N, M]⟩ ![0, 1] hs s))
        (broadcastInDim ⟨2, ![N, M]⟩ ![0, 1] hb b))
      (broadcastInDim ⟨2, ![N, M]⟩ ![] hz (constant (F := Ideal) ⟨0, ![]⟩ .f32 0x00000000#32)) = layer a w s b := by
  funext j
  obtain ⟨p, q, rfl⟩ : ∃ (p : Fin N) (q : Fin M), j = ix2 p q := ⟨j 0, j 1, eq_ix2 j⟩
  rw [layer_apply, maximumf_apply, addf_apply, mulf_apply, PlainDot.dotGeneral_apply wf none a w p q,
    LayoutIx.bcast_cols ![0, 1] rfl rfl hs s p q, LayoutIx.bcast_rows ![0, 1] rfl rfl hb b p q, LayoutIx.bcast_scalar]
  rfl

/-- THE HOST REFERENCE'S ENCODER has no scale; the layer with the constant-one column is the same function, since
    x · 1 = x on every extended real. -/
theorem host_encoder (wf : DotDims.WF ⟨2, ![N, K]⟩ ⟨2, ![K, M]⟩ ⟨2, ![N, M]⟩ [1] [0] [0] [1] [] [])
    (hb : (⟨2, ![1, M]⟩ : Shape).BroadcastsInDim ⟨2, ![N, M]⟩ ![0, 1])
    (hz : (⟨0, ![]⟩ : Shape).BroadcastsInDim ⟨2, ![N, M]⟩ ![])
    (ho : (⟨0, ![]⟩ : Shape).BroadcastsInDim ⟨2, ![N, 1]⟩ ![])
    (a : FVec Ideal ⟨2, ![N, K]⟩ .f32) (w : FVec Ideal ⟨2, ![K, M]⟩ .f32) (b : FVec Ideal ⟨2, ![1, M]⟩ .f32) :
    maximumf (addf (Host.dotGeneral (PlainDot.dims wf) none a w) (broadcastInDim ⟨2, ![N, M]⟩ ![0, 1] hb b))
      (broadcastInDim ⟨2, ![N, M]⟩ ![] hz (constant (F := Ideal) ⟨0, ![]⟩ .f32 0x00000000#32))
      = layer a w (broadcastInDim ⟨2, ![N, 1]⟩ ![] ho (constant (F := Ideal) ⟨0, ![]⟩ .f32 0x3F800000#32)) b := by
  funext j
  obtain ⟨p, q, rfl⟩ : ∃ (p : Fin N) (q : Fin M), j = ix2 p q := ⟨j 0, j 1, eq_ix2 j⟩
  rw [layer_apply, maximumf_apply, addf_apply, PlainDot.dotGeneral_apply wf none a w p q,
    LayoutIx.bcast_rows ![0, 1] rfl rfl hb b p q, LayoutIx.bcast_scalar]
  have hone : (broadcastInDim ⟨2, ![N, 1]⟩ ![] ho (constant (F := Ideal) ⟨0, ![]⟩ .f32 0x3F800000#32) : FVec Ideal ⟨2, ![N, 1]⟩ .f32)
      (ix2 p (0 : Fin 1)) = 1 :=
    (LayoutIx.bcast_scalar _ _ ho _ _).trans Cert.Bridge.ofBits_one
  unfold entry
  rw [hone, mul_one]
  rfl

/-- A bias vector as a row: the host's `broadcast_in_dim` along axis 1 and a reshape to [1, M] are the same array. -/
theorem row_forms (hr : (⟨1, ![M]⟩ : Shape).BroadcastsInDim ⟨2, ![1, M]⟩ ![1]) (hc : (⟨1, ![M]⟩ : Shape).ShapeCasts ⟨2, ![1, M]⟩)
    (b : (⟨1, ![M]⟩ : Shape).Idx → EReal) :
    broadcastInDim ⟨2, ![1, M]⟩ ![1] hr b = shapeCast ⟨2, ![1, M]⟩ b hc := by
  funext j
  obtain ⟨u, q, rfl⟩ : ∃ (u : Fin 1) (q : Fin M), j = ix2 u q := ⟨j 0, j 1, eq_ix2 j⟩
  rw [LayoutIx.bcast_row ![1] rfl hr b q u]
  refine (shapeCast_apply b hc (ix2 u q) (ix1 q) ?_).symm
  have hu : u.val = 0 := by omega
  rw [Shape.rowMajor_val_two, Shape.rowMajor_val_one]
  show q.val = u.val * M + q.val
  rw [hu]; omega

end Cert.FusedLinear

end
-- ==== Proof.Region0.lean ====
/-
  Region 0 of the kernel program (the encoder), read as a value: whatever the buffers hold when the region is entered, its output
  array ends holding the fused linear layer of its four input arrays.

  Point t of the grid stages rows 2000·t … 2000·t + 1999 of the left operand and of the scale column, the whole
  weight matrix and the whole bias row, and writes back the same rows of the output; the body's value at an entry of
  its block is the layer's entry, which depends on those rows only; and the 25 blocks of rows tile the 50000 rows.
-/
import proofs.«150012_j26792005992869_1_alg».proof.Proof.Gen.KernelIdeal.Frame
import proofs.«150012_j26792005992869_1_alg».proof.Proof.LinearSpec
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.FusedLinear

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block is the layer's entry of the four loaded blocks. -/
theorem payload_apply (x0 : FVec Ideal S2000x512 .f32) (x1 : FVec Ideal S512x256 .f32) (x2 : FVec Ideal S2000x1 .f32)
    (x3 : FVec Ideal S1x256 .f32) (p : Fin 2000) (q : Fin 256) :
    k0_pay1 (F := Ideal) x0 x1 x2 x3 (ix2 p q) = entry x0 x1 x2 x3 p q := by
  unfold k0_pay1
  rw [shapeCast_self, shapeCast_self]
  exact body_apply dot_S2000x512_S512x256_S2000x256_1_0_0_1_n_n.wf broadcasts_S2000x1_S2000x256 broadcasts_S1x256_S2000x256
    bitsLt_bf16_f32 x0 x1 x2 x3 p q

/-- The printed index maps over the grid: the row-tiled windows sit at block row t, the resident ones at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The left operand's block at point t is rows 2000·t … of its array. -/
theorem read_left (c : Dev nD) (t : Fin cfg0.N) (x : S2000x512.Idx) (i : S50000x512.Idx)
    (h0 : (i 0).val = t.val * 2000 + (x 0).val) (h1 : (i 1).val = (x 1).val) :
    (iblk0 V c 0 t : FVec Ideal S2000x512 .f32) x = (V c main_arg0 : FVec Ideal S50000x512 .f32) i := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (x 0).val = (i 0).val; rw [e0, h0]; omega
  | ⟨1, _⟩ => show win0_0.index t (1 : Fin 2) * 512 + 1 * (x 1).val = (i 1).val; rw [e1, h1]; omega

/-- The weight matrix is staged whole. -/
theorem read_weight (c : Dev nD) (t : Fin cfg0.N) (x : S512x256.Idx) :
    (iblk0 V c 1 t : FVec Ideal S512x256 .f32) x = (V c main_arg3 : FVec Ideal S512x256 .f32) x := by
  obtain ⟨-, -, e0, e1, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 512 + 1 * (x 0).val = (x 0).val; rw [e0]; omega
  | ⟨1, _⟩ => show win0_1.index t (1 : Fin 2) * 256 + 1 * (x 1).val = (x 1).val; rw [e1]; omega

/-- The scale column's block at point t is rows 2000·t … of the column. -/
theorem read_scale (c : Dev nD) (t : Fin cfg0.N) (x : S2000x1.Idx) (i : S50000x1.Idx)
    (h0 : (i 0).val = t.val * 2000 + (x 0).val) (h1 : (i 1).val = (x 1).val) :
    (iblk0 V c 2 t : FVec Ideal S2000x1 .f32) x = (V c main_v17 : FVec Ideal S50000x1 .f32) i := by
  obtain ⟨-, -, -, -, e0, e1, -⟩ := idx_facts t
  unfold iblk0
  rw [View.read_apply]
  show V c main_v17 _ = V c main_v17 _
  refine congrArg (V c main_v17) (funext fun a => Fin.ext ?_)
  match a with
  | ⟨0, _⟩ => show win0_2.index t (0 : Fin 2) * 2000 + 1 * (x 0).val = (i 0).val; rw [e0, h0]; omega
  | ⟨1, _⟩ => show win0_2.index t (1 : Fin 2) * 1 + 1 * (x 1).val = (i 1).val; rw [e1, h1]; omega

/-- The bias row is staged whole. -/
theorem read_bias (c : Dev nD) (t : Fin cfg0.N) (x : S1x256.Idx) :
    (iblk0 V c 3 t : FVec Ideal S1x256 .f32) x = (V c main_v18 : FVec Ideal S1x256 .f32) x := by
  obtain ⟨-, -, -, -, -, -, e0, e1, -⟩ := idx_facts t
  unfold iblk0
  rw [View.read_apply]
  show V c main_v18 _ = V c main_v18 _
  refine congrArg (V c main_v18) (funext fun a => Fin.ext ?_)
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The layer of the four arrays as the region finds them. -/
abbrev result (c : Dev nD) : FVec Ideal S50000x256 .f32 :=
  layer (V c main_arg0 : FVec Ideal S50000x512 .f32) (V c main_arg3 : FVec Ideal S512x256 .f32)
    (V c main_v17 : FVec Ideal S50000x1 .f32) (V c main_v18 : FVec Ideal S1x256 .f32)

/-- WHAT POINT t WRITES BACK is block t of the layer of the arrays. -/
theorem flushed_eq (c : Dev nD) (t : Fin cfg0.N) :
    (dat0 V c).flushed 4 t = ((cfg0.win 4).blk t).view.read (Elt Ideal) (result V c) := by
  have ht : t.val < 25 := by have h := t.isLt; have hN : cfg0.N = 25 := N_0; omega
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S2000x512) hz, View.ld_unit_zero (S := S512x256) hz, View.ld_unit_zero (S := S2000x1) hz,
    View.ld_unit_zero (S := S1x256) hz]
  refine funext fun (y : S2000x256.Idx) => ?_
  obtain ⟨p, q, rfl⟩ : ∃ (p : Fin 2000) (q : Fin 256), y = ix2 p q := ⟨y 0, y 1, eq_ix2 y⟩
  rw [View.read_apply]
  have hemb : ((cfg0.win 4).blk t).view.emb (ix2 p q) = (ix2 (⟨t.val * 2000 + p.val, by omega⟩ : Fin 50000) q : S50000x256.Idx) :=
    funext fun a => Fin.ext (by
      match a with
      | ⟨0, _⟩ => show win0_4.index t (0 : Fin 2) * 2000 + 1 * p.val = t.val * 2000 + p.val; rw [e0]; omega
      | ⟨1, _⟩ => show win0_4.index t (1 : Fin 2) * 256 + 1 * q.val = q.val; rw [e1]; omega)
  rw [hemb]
  show k0_pay1 (F := Ideal) (iblk0 V c 0 t) (iblk0 V c 1 t) (iblk0 V c 2 t) (iblk0 V c 3 t) (ix2 p q) = _
  refine (payload_apply (iblk0 V c 0 t) (iblk0 V c 1 t) (iblk0 V c 2 t) (iblk0 V c 3 t) p q).trans ?_
  exact entry_congr (iblk0 V c 0 t) (iblk0 V c 1 t) (iblk0 V c 2 t) (iblk0 V c 3 t)
    (V c main_arg0 : FVec Ideal S50000x512 .f32) (V c main_arg3 : FVec Ideal S512x256 .f32)
    (V c main_v17 : FVec Ideal S50000x1 .f32) (V c main_v18 : FVec Ideal S1x256 .f32) p ⟨t.val * 2000 + p.val, by omega⟩ q
    (fun j => read_left V c t (ix2 p j) (ix2 ⟨t.val * 2000 + p.val, by omega⟩ j) rfl rfl)
    (fun j => read_weight V c t (ix2 j q))
    (read_scale V c t (ix2 p (0 : Fin 1)) (ix2 ⟨t.val * 2000 + p.val, by omega⟩ (0 : Fin 1)) rfl rfl)
    (read_bias V c t (ix2 (0 : Fin 1) q))

/-- An index of the output array is in point t's block iff its row is among the block's 2000 rows. -/
theorem mem_blk (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v19).slice (win0_4.rect t)).set ↔ _
  rw [View.set_slice_whole, Rect.mem_set_unit]
  exact Iff.rfl

/-- The blocks tile the array: row r is in block r / 2000. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hlt : (i 0).val / 2000 < cfg0.N := by rw [show cfg0.N = 25 from N_0]; omega
  obtain ⟨-, -, -, -, -, -, -, -, e0, e1⟩ := idx_facts ⟨(i 0).val / 2000, hlt⟩
  refine ⟨⟨(i 0).val / 2000, hlt⟩, flush0_4 _, ?_⟩
  rw [mem_blk]
  intro a
  match a with
  | ⟨0, _⟩ =>
    show win0_4.index ⟨(i 0).val / 2000, hlt⟩ (0 : Fin 2) * 2000 ≤ (i 0).val
      ∧ (i 0).val < win0_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hlt⟩ (1 : Fin 2) * 256 ≤ (i 1).val
      ∧ (i 1).val < win0_4.index ⟨(i 0).val / 2000, hlt⟩ (1 : Fin 2) * 256 + 256
    rw [e1]; omega

/-- THE OUTPUT ARRAY after the region: the layer of the four arrays as the region found them. -/
theorem final (c : Dev nD) : (dat0 V c).arrAt 4 cfg0.N = result V c :=
  (dat0 V c).arrAt_eq_of_cover 4 (result V c) (fun t _ => flushed_eq V c t) cover

end Cert.KernelIdeal.Region0

end
-- ==== Proof.Region1.lean ====
/-
  Region 1 of the kernel program, read as a value: whatever the buffers hold when the region is entered, its output
  array ends holding the fused linear layer of its four input arrays.

  Point t of the grid stages rows 2000·t … 2000·t + 1999 of the left operand and of the scale column, the whole
  weight matrix and the whole bias row, and writes back the same rows of the output; the body's value at an entry of
  its block is the layer's entry, which depends on those rows only; and the 25 blocks of rows tile the 50000 rows.
-/
import proofs.«150012_j26792005992869_1_alg».proof.Proof.Gen.KernelIdeal.Frame
import proofs.«150012_j26792005992869_1_alg».proof.Proof.LinearSpec
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.FusedLinear

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block is the layer's entry of the four loaded blocks. -/
theorem payload_apply (x0 : FVec Ideal S2000x256 .f32) (x1 : FVec Ideal S256x256 .f32) (x2 : FVec Ideal S2000x1 .f32)
    (x3 : FVec Ideal S1x256 .f32) (p : Fin 2000) (q : Fin 256) :
    k1_pay1 (F := Ideal) x0 x1 x2 x3 (ix2 p q) = entry x0 x1 x2 x3 p q := by
  unfold k1_pay1
  rw [shapeCast_self, shapeCast_self, shapeCast_self, shapeCast_self]
  exact body_apply dot_S2000x256_S256x256_S2000x256_1_0_0_1_n_n.wf broadcasts_S2000x1_S2000x256 broadcasts_S1x256_S2000x256
    bitsLt_bf16_f32 x0 x1 x2 x3 p q

/-- The printed index maps over the grid: the row-tiled windows sit at block row t, the resident ones at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The left operand's block at point t is rows 2000·t … of its array. -/
theorem read_left (c : Dev nD) (t : Fin cfg1.N) (x : S2000x256.Idx) (i : S50000x256.Idx)
    (h0 : (i 0).val = t.val * 2000 + (x 0).val) (h1 : (i 1).val = (x 1).val) :
    (iblk1 V c 0 t : FVec Ideal S2000x256 .f32) x = (V c main_v35 : FVec Ideal S50000x256 .f32) i := by
  obtain ⟨e0, e1, -⟩ := idx_facts t
  unfold iblk1
  rw [View.read_apply]
  show V c main_v35 _ = V c main_v35 _
  refine congrArg (V c main_v35) (funext fun a => Fin.ext ?_)
  match a with
  | ⟨0, _⟩ => show win1_0.index t (0 : Fin 2) * 2000 + 1 * (x 0).val = (i 0).val; rw [e0, h0]; omega
  | ⟨1, _⟩ => show win1_0.index t (1 : Fin 2) * 256 + 1 * (x 1).val = (i 1).val; rw [e1, h1]; omega

/-- The weight matrix is staged whole. -/
theorem read_weight (c : Dev nD) (t : Fin cfg1.N) (x : S256x256.Idx) :
    (iblk1 V c 1 t : FVec Ideal S256x256 .f32) x = (V c main_v21 : FVec Ideal S256x256 .f32) x := by
  obtain ⟨-, -, e0, e1, -⟩ := idx_facts t
  unfold iblk1
  rw [View.read_apply]
  show V c main_v21 _ = V c main_v21 _
  refine congrArg (V c main_v21) (funext fun a => Fin.ext ?_)
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The scale column's block at point t is rows 2000·t … of the column. -/
theorem read_scale (c : Dev nD) (t : Fin cfg1.N) (x : S2000x1.Idx) (i : S50000x1.Idx)
    (h0 : (i 0).val = t.val * 2000 + (x 0).val) (h1 : (i 1).val = (x 1).val) :
    (iblk1 V c 2 t : FVec Ideal S2000x1 .f32) x = (V c main_v16 : FVec Ideal S50000x1 .f32) i := by
  obtain ⟨-, -, -, -, e0, e1, -⟩ := idx_facts t
  unfold iblk1
  rw [View.read_apply]
  show V c main_v16 _ = V c main_v16 _
  refine congrArg (V c main_v16) (funext fun a => Fin.ext ?_)
  match a with
  | ⟨0, _⟩ => show win1_2.index t (0 : Fin 2) * 2000 + 1 * (x 0).val = (i 0).val; rw [e0, h0]; omega
  | ⟨1, _⟩ => show win1_2.index t (1 : Fin 2) * 1 + 1 * (x 1).val = (i 1).val; rw [e1, h1]; omega

/-- The bias row is staged whole. -/
theorem read_bias (c : Dev nD) (t : Fin cfg1.N) (x : S1x256.Idx) :
    (iblk1 V c 3 t : FVec Ideal S1x256 .f32) x = (V c main_v36 : FVec Ideal S1x256 .f32) x := by
  obtain ⟨-, -, -, -, -, -, e0, e1, -⟩ := idx_facts t
  unfold iblk1
  rw [View.read_apply]
  show V c main_v36 _ = V c main_v36 _
  refine congrArg (V c main_v36) (funext fun a => Fin.ext ?_)
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- The layer of the four arrays as the region finds them. -/
abbrev result (c : Dev nD) : FVec Ideal S50000x256 .f32 :=
  layer (V c main_v35 : FVec Ideal S50000x256 .f32) (V c main_v21 : FVec Ideal S256x256 .f32)
    (V c main_v16 : FVec Ideal S50000x1 .f32) (V c main_v36 : FVec Ideal S1x256 .f32)

/-- WHAT POINT t WRITES BACK is block t of the layer of the arrays. -/
theorem flushed_eq (c : Dev nD) (t : Fin cfg1.N) :
    (dat1 V c).flushed 4 t = ((cfg1.win 4).blk t).view.read (Elt Ideal) (result V c) := by
  have ht : t.val < 25 := by have h := t.isLt; have hN : cfg1.N = 25 := N_1; omega
  obtain ⟨-, -, -, -, -, -, -, -, e0, e1⟩ := idx_facts t
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S2000x1) hz,
    View.ld_unit_zero (S := S1x256) hz]
  refine funext fun (y : S2000x256.Idx) => ?_
  obtain ⟨p, q, rfl⟩ : ∃ (p : Fin 2000) (q : Fin 256), y = ix2 p q := ⟨y 0, y 1, eq_ix2 y⟩
  rw [View.read_apply]
  have hemb : ((cfg1.win 4).blk t).view.emb (ix2 p q) = (ix2 (⟨t.val * 2000 + p.val, by omega⟩ : Fin 50000) q : S50000x256.Idx) :=
    funext fun a => Fin.ext (by
      match a with
      | ⟨0, _⟩ => show win1_4.index t (0 : Fin 2) * 2000 + 1 * p.val = t.val * 2000 + p.val; rw [e0]; omega
      | ⟨1, _⟩ => show win1_4.index t (1 : Fin 2) * 256 + 1 * q.val = q.val; rw [e1]; omega)
  rw [hemb]
  show k1_pay1 (F := Ideal) (iblk1 V c 0 t) (iblk1 V c 1 t) (iblk1 V c 2 t) (iblk1 V c 3 t) (ix2 p q) = _
  refine (payload_apply (iblk1 V c 0 t) (iblk1 V c 1 t) (iblk1 V c 2 t) (iblk1 V c 3 t) p q).trans ?_
  exact entry_congr (iblk1 V c 0 t) (iblk1 V c 1 t) (iblk1 V c 2 t) (iblk1 V c 3 t)
    (V c main_v35 : FVec Ideal S50000x256 .f32) (V c main_v21 : FVec Ideal S256x256 .f32)
    (V c main_v16 : FVec Ideal S50000x1 .f32) (V c main_v36 : FVec Ideal S1x256 .f32) p ⟨t.val * 2000 + p.val, by omega⟩ q
    (fun j => read_left V c t (ix2 p j) (ix2 ⟨t.val * 2000 + p.val, by omega⟩ j) rfl rfl)
    (fun j => read_weight V c t (ix2 j q))
    (read_scale V c t (ix2 p (0 : Fin 1)) (ix2 ⟨t.val * 2000 + p.val, by omega⟩ (0 : Fin 1)) rfl rfl)
    (read_bias V c t (ix2 (0 : Fin 1) q))

/-- An index of the output array is in point t's block iff its row is among the block's 2000 rows. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v37).slice (win1_4.rect t)).set ↔ _
  rw [View.set_slice_whole, Rect.mem_set_unit]
  exact Iff.rfl

/-- The blocks tile the array: row r is in block r / 2000. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hlt : (i 0).val / 2000 < cfg1.N := by rw [show cfg1.N = 25 from N_1]; omega
  obtain ⟨-, -, -, -, -, -, -, -, e0, e1⟩ := idx_facts ⟨(i 0).val / 2000, hlt⟩
  refine ⟨⟨(i 0).val / 2000, hlt⟩, flush1_4 _, ?_⟩
  rw [mem_blk]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hlt⟩ (1 : Fin 2) * 256 ≤ (i 1).val
      ∧ (i 1).val < win1_4.index ⟨(i 0).val / 2000, hlt⟩ (1 : Fin 2) * 256 + 256
    rw [e1]; omega

/-- THE OUTPUT ARRAY after the region: the layer of the four arrays as the region found them. -/
theorem final (c : Dev nD) : (dat1 V c).arrAt 4 cfg1.N = result V c :=
  (dat1 V c).arrAt_eq_of_cover 4 (result V c) (fun t _ => flushed_eq V c t) cover

end Cert.KernelIdeal.Region1

end
-- ==== Proof.Region2.lean ====
/-
  Region 2 of the kernel program, read as a value: whatever the buffers hold when the region is entered, its output
  array ends holding the fused linear layer of its four input arrays.

  Point t of the grid stages rows 2000·t … 2000·t + 1999 of the left operand and of the scale column, the whole
  weight matrix and the whole bias row, and writes back the same rows of the output; the body's value at an entry of
  its block is the layer's entry, which depends on those rows only; and the 25 blocks of rows tile the 50000 rows.
-/
import proofs.«150012_j26792005992869_1_alg».proof.Proof.Gen.KernelIdeal.Frame
import proofs.«150012_j26792005992869_1_alg».proof.Proof.LinearSpec
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.FusedLinear

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block is the layer's entry of the four loaded blocks. -/
theorem payload_apply (x0 : FVec Ideal S2000x256 .f32) (x1 : FVec Ideal S256x256 .f32) (x2 : FVec Ideal S2000x1 .f32)
    (x3 : FVec Ideal S1x256 .f32) (p : Fin 2000) (q : Fin 256) :
    k2_pay1 (F := Ideal) x0 x1 x2 x3 (ix2 p q) = entry x0 x1 x2 x3 p q := by
  unfold k2_pay1
  rw [shapeCast_self, shapeCast_self, shapeCast_self, shapeCast_self]
  exact body_apply dot_S2000x256_S256x256_S2000x256_1_0_0_1_n_n.wf broadcasts_S2000x1_S2000x256 broadcasts_S1x256_S2000x256
    bitsLt_bf16_f32 x0 x1 x2 x3 p q

/-- The printed index maps over the grid: the row-tiled windows sit at block row t, the resident ones at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The left operand's block at point t is rows 2000·t … of its array. -/
theorem read_left (c : Dev nD) (t : Fin cfg2.N) (x : S2000x256.Idx) (i : S50000x256.Idx)
    (h0 : (i 0).val = t.val * 2000 + (x 0).val) (h1 : (i 1).val = (x 1).val) :
    (iblk2 V c 0 t : FVec Ideal S2000x256 .f32) x = (V c main_v53 : FVec Ideal S50000x256 .f32) i := by
  obtain ⟨e0, e1, -⟩ := idx_facts t
  unfold iblk2
  rw [View.read_apply]
  show V c main_v53 _ = V c main_v53 _
  refine congrArg (V c main_v53) (funext fun a => Fin.ext ?_)
  match a with
  | ⟨0, _⟩ => show win2_0.index t (0 : Fin 2) * 2000 + 1 * (x 0).val = (i 0).val; rw [e0, h0]; omega
  | ⟨1, _⟩ => show win2_0.index t (1 : Fin 2) * 256 + 1 * (x 1).val = (i 1).val; rw [e1, h1]; omega

/-- The weight matrix is staged whole. -/
theorem read_weight (c : Dev nD) (t : Fin cfg2.N) (x : S256x256.Idx) :
    (iblk2 V c 1 t : FVec Ideal S256x256 .f32) x = (V c main_v39 : FVec Ideal S256x256 .f32) x := by
  obtain ⟨-, -, e0, e1, -⟩ := idx_facts t
  unfold iblk2
  rw [View.read_apply]
  show V c main_v39 _ = V c main_v39 _
  refine congrArg (V c main_v39) (funext fun a => Fin.ext ?_)
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

/-- The scale column's block at point t is rows 2000·t … of the column. -/
theorem read_scale (c : Dev nD) (t : Fin cfg2.N) (x : S2000x1.Idx) (i : S50000x1.Idx)
    (h0 : (i 0).val = t.val * 2000 + (x 0).val) (h1 : (i 1).val = (x 1).val) :
    (iblk2 V c 2 t : FVec Ideal S2000x1 .f32) x = (V c main_v16 : FVec Ideal S50000x1 .f32) i := by
  obtain ⟨-, -, -, -, e0, e1, -⟩ := idx_facts t
  unfold iblk2
  rw [View.read_apply]
  show V c main_v16 _ = V c main_v16 _
  refine congrArg (V c main_v16) (funext fun a => Fin.ext ?_)
  match a with
  | ⟨0, _⟩ => show win2_2.index t (0 : Fin 2) * 2000 + 1 * (x 0).val = (i 0).val; rw [e0, h0]; omega
  | ⟨1, _⟩ => show win2_2.index t (1 : Fin 2) * 1 + 1 * (x 1).val = (i 1).val; rw [e1, h1]; omega

/-- The bias row is staged whole. -/
theorem read_bias (c : Dev nD) (t : Fin cfg2.N) (x : S1x256.Idx) :
    (iblk2 V c 3 t : FVec Ideal S1x256 .f32) x = (V c main_v54 : FVec Ideal S1x256 .f32) x := by
  obtain ⟨-, -, -, -, -, -, e0, e1, -⟩ := idx_facts t
  unfold iblk2
  rw [View.read_apply]
  show V c main_v54 _ = V c main_v54 _
  refine congrArg (V c main_v54) (funext fun a => Fin.ext ?_)
  match a with
  | ⟨0, _⟩ => show win2_3.index t (0 : Fin 2) * 1 + 1 * (x 0).val = (x 0).val; rw [e0]; omega
  | ⟨1, _⟩ => show win2_3.index t (1 : Fin 2) * 256 + 1 * (x 1).val = (x 1).val; rw [e1]; omega

/-- The layer of the four arrays as the region finds them. -/
abbrev result (c : Dev nD) : FVec Ideal S50000x256 .f32 :=
  layer (V c main_v53 : FVec Ideal S50000x256 .f32) (V c main_v39 : FVec Ideal S256x256 .f32)
    (V c main_v16 : FVec Ideal S50000x1 .f32) (V c main_v54 : FVec Ideal S1x256 .f32)

/-- WHAT POINT t WRITES BACK is block t of the layer of the arrays. -/
theorem flushed_eq (c : Dev nD) (t : Fin cfg2.N) :
    (dat2 V c).flushed 4 t = ((cfg2.win 4).blk t).view.read (Elt Ideal) (result V c) := by
  have ht : t.val < 25 := by have h := t.isLt; have hN : cfg2.N = 25 := N_2; omega
  obtain ⟨-, -, -, -, -, -, -, -, e0, e1⟩ := idx_facts t
  show (cfg2.win 4).cut (grid2.coords t) ((dat2 V c).after 4 t) = _
  rw [after2_4]
  unfold out2_4
  rw [View.canon_unit_zero hz]
  simp only [View.ld_unit_zero (S := S2000x256) hz, View.ld_unit_zero (S := S256x256) hz, View.ld_unit_zero (S := S2000x1) hz,
    View.ld_unit_zero (S := S1x256) hz]
  refine funext fun (y : S2000x256.Idx) => ?_
  obtain ⟨p, q, rfl⟩ : ∃ (p : Fin 2000) (q : Fin 256), y = ix2 p q := ⟨y 0, y 1, eq_ix2 y⟩
  rw [View.read_apply]
  have hemb : ((cfg2.win 4).blk t).view.emb (ix2 p q) = (ix2 (⟨t.val * 2000 + p.val, by omega⟩ : Fin 50000) q : S50000x256.Idx) :=
    funext fun a => Fin.ext (by
      match a with
      | ⟨0, _⟩ => show win2_4.index t (0 : Fin 2) * 2000 + 1 * p.val = t.val * 2000 + p.val; rw [e0]; omega
      | ⟨1, _⟩ => show win2_4.index t (1 : Fin 2) * 256 + 1 * q.val = q.val; rw [e1]; omega)
  rw [hemb]
  show k2_pay1 (F := Ideal) (iblk2 V c 0 t) (iblk2 V c 1 t) (iblk2 V c 2 t) (iblk2 V c 3 t) (ix2 p q) = _
  refine (payload_apply (iblk2 V c 0 t) (iblk2 V c 1 t) (iblk2 V c 2 t) (iblk2 V c 3 t) p q).trans ?_
  exact entry_congr (iblk2 V c 0 t) (iblk2 V c 1 t) (iblk2 V c 2 t) (iblk2 V c 3 t)
    (V c main_v53 : FVec Ideal S50000x256 .f32) (V c main_v39 : FVec Ideal S256x256 .f32)
    (V c main_v16 : FVec Ideal S50000x1 .f32) (V c main_v54 : FVec Ideal S1x256 .f32) p ⟨t.val * 2000 + p.val, by omega⟩ q
    (fun j => read_left V c t (ix2 p j) (ix2 ⟨t.val * 2000 + p.val, by omega⟩ j) rfl rfl)
    (fun j => read_weight V c t (ix2 j q))
    (read_scale V c t (ix2 p (0 : Fin 1)) (ix2 ⟨t.val * 2000 + p.val, by omega⟩ (0 : Fin 1)) rfl rfl)
    (read_bias V c t (ix2 (0 : Fin 1) q))

/-- An index of the output array is in point t's block iff its row is among the block's 2000 rows. -/
theorem mem_blk (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v55).slice (win2_4.rect t)).set ↔ _
  rw [View.set_slice_whole, Rect.mem_set_unit]
  exact Iff.rfl

/-- The blocks tile the array: row r is in block r / 2000. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hlt : (i 0).val / 2000 < cfg2.N := by rw [show cfg2.N = 25 from N_2]; omega
  obtain ⟨-, -, -, -, -, -, -, -, e0, e1⟩ := idx_facts ⟨(i 0).val / 2000, hlt⟩
  refine ⟨⟨(i 0).val / 2000, hlt⟩, flush2_4 _, ?_⟩
  rw [mem_blk]
  intro a
  match a with
  | ⟨0, _⟩ =>
    show win2_4.index ⟨(i 0).val / 2000, hlt⟩ (0 : Fin 2) * 2000 ≤ (i 0).val
      ∧ (i 0).val < win2_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, hlt⟩ (1 : Fin 2) * 256 ≤ (i 1).val
      ∧ (i 1).val < win2_4.index ⟨(i 0).val / 2000, hlt⟩ (1 : Fin 2) * 256 + 256
    rw [e1]; omega

/-- THE OUTPUT ARRAY after the region: the layer of the four arrays as the region found them. -/
theorem final (c : Dev nD) : (dat2 V c).arrAt 4 cfg2.N = result V c :=
  (dat2 V c).arrAt_eq_of_cover 4 (result V c) (fun t _ => flushed_eq V c t) cover

end Cert.KernelIdeal.Region2

end
-- ==== Proof.Region3.lean ====
/-
  Region 3 of the kernel program, read as a value: whatever the buffers hold when the region is entered, its output
  array ends holding the fused linear layer of its four input arrays.

  Point t of the grid stages rows 2000·t … 2000·t + 1999 of the left operand and of the scale column, the whole
  weight matrix and the whole bias row, and writes back the same rows of the output; the body's value at an entry of
  its block is the layer's entry, which depends on those rows only; and the 25 blocks of rows tile the 50000 rows.
-/
import proofs.«150012_j26792005992869_1_alg».proof.Proof.Gen.KernelIdeal.Frame
import proofs.«150012_j26792005992869_1_alg».proof.Proof.LinearSpec
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.FusedLinear

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block is the layer's entry of the four loaded blocks. -/
theorem payload_apply (x0 : FVec Ideal S2000x256 .f32) (x1 : FVec Ideal S256x256 .f32) (x2 : FVec Ideal S2000x1 .f32)
    (x3 : FVec Ideal S1x256 .f32) (p : Fin 2000) (q : Fin 256) :
    k3_pay1 (F := Ideal) x0 x1 x2 x3 (ix2 p q) = entry x0 x1 x2 x3 p q := by
  unfold k3_pay1
  rw [shapeCast_self, shapeCast_self, shapeCast_self, shapeCast_self]
  exact body_apply dot_S2000x256_S256x256_S2000x256_1_0_0_1_n_n.wf broadcasts_S2000x1_S2000x256 broadcasts_S1x256_S2000x256
    bitsLt_bf16_f32 x0 x1 x2 x3 p q

/-- The printed index maps over the grid: the row-tiled windows sit at block row t, the resident ones at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The left operand's block at point t is rows 2000·t … of its array. -/
theorem read_left (c : Dev nD) (t : Fin cfg3.N) (x : S2000x256.Idx) (i : S50000x256.Idx)
    (h0 : (i 0).val = t.val * 2000 + (x 0).val) (h1 : (i 1).val = (x 1).val) :
    (iblk3 V c 0 t : FVec Ideal S2000x256 .f32) x = (V c main_v71 : FVec Ideal S50000x256 .f32) i := by
  obtain ⟨e0, e1, -⟩ := idx_facts t
  unfold iblk3
  rw [View.read_apply]
  show V c main_v71 _ = V c main_v71 _
  refine congrArg (V c main_v71) (funext fun a => Fin.ext ?_)
  match a with
  | ⟨0, _⟩ => show win3_0.index t (0 : Fin 2) * 2000 + 1 * (x 0).val = (i 0).val; rw [e0, h0]; omega
  | ⟨1, _⟩ => show win3_0.index t (1 : Fin 2) * 256 + 1 * (x 1).val = (i 1).val; rw [e1, h1]; omega

/-- The weight matrix is staged whole. -/
theorem read_weight (c : Dev nD) (t : Fin cfg3.N) (x : S256x256.Idx) :
    (iblk3 V c 1 t : FVec Ideal S256x256 .f32) x = (V c main_v57 : FVec Ideal S256x256 .f32) x := by
  obtain ⟨-, -, e0, e1, -⟩ := idx_facts t
  unfold iblk3
  rw [View.read_apply]
  show V c main_v57 _ = V c main_v57 _
  refine congrArg (V c main_v57) (funext fun a => Fin.ext ?_)
  match a with
  | ⟨0, _⟩ => show win3_1.index t (0 : Fin 2) * 256 + 1 * (x 0).val = (x 0).val; rw [e0]; omega
  | ⟨1, _⟩ => show win3_1.index t (1 : Fin 2) * 256 + 1 * (x 1).val = (x 1).val; rw [e1]; omega

/-- The scale column's block at point t is rows 2000·t … of the column. -/
theorem read_scale (c : Dev nD) (t : Fin cfg3.N) (x : S2000x1.Idx) (i : S50000x1.Idx)
    (h0 : (i 0).val = t.val * 2000 + (x 0).val) (h1 : (i 1).val = (x 1).val) :
    (iblk3 V c 2 t : FVec Ideal S2000x1 .f32) x = (V c main_v16 : FVec Ideal S50000x1 .f32) i := by
  obtain ⟨-, -, -, -, e0, e1, -⟩ := idx_facts t
  unfold iblk3
  rw [View.read_apply]
  show V c main_v16 _ = V c main_v16 _
  refine congrArg (V c main_v16) (funext fun a => Fin.ext ?_)
  match a with
  | ⟨0, _⟩ => show win3_2.index t (0 : Fin 2) * 2000 + 1 * (x 0).val = (i 0).val; rw [e0, h0]; omega
  | ⟨1, _⟩ => show win3_2.index t (1 : Fin 2) * 1 + 1 * (x 1).val = (i 1).val; rw [e1, h1]; omega

/-- The bias row is staged whole. -/
theorem read_bias (c : Dev nD) (t : Fin cfg3.N) (x : S1x256.Idx) :
    (iblk3 V c 3 t : FVec Ideal S1x256 .f32) x = (V c main_v72 : FVec Ideal S1x256 .f32) x := by
  obtain ⟨-, -, -, -, -, -, e0, e1, -⟩ := idx_facts t
  unfold iblk3
  rw [View.read_apply]
  show V c main_v72 _ = V c main_v72 _
  refine congrArg (V c main_v72) (funext fun a => Fin.ext ?_)
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega

/-- The layer of the four arrays as the region finds them. -/
abbrev result (c : Dev nD) : FVec Ideal S50000x256 .f32 :=
  layer (V c main_v71 : FVec Ideal S50000x256 .f32) (V c main_v57 : FVec Ideal S256x256 .f32)
    (V c main_v16 : FVec Ideal S50000x1 .f32) (V c main_v72 : FVec Ideal S1x256 .f32)

/-- WHAT POINT t WRITES BACK is block t of the layer of the arrays. -/
theorem flushed_eq (c : Dev nD) (t : Fin cfg3.N) :
    (dat3 V c).flushed 4 t = ((cfg3.win 4).blk t).view.read (Elt Ideal) (result V c) := by
  have ht : t.val < 25 := by have h := t.isLt; have hN : cfg3.N = 25 := N_3; omega
  obtain ⟨-, -, -, -, -, -, -, -, e0, e1⟩ := idx_facts t
  show (cfg3.win 4).cut (grid3.coords t) ((dat3 V c).after 4 t) = _
  rw [after3_4]
  unfold out3_4
  rw [View.canon_unit_zero hz]
  simp only [View.ld_unit_zero (S := S2000x256) hz, View.ld_unit_zero (S := S256x256) hz, View.ld_unit_zero (S := S2000x1) hz,
    View.ld_unit_zero (S := S1x256) hz]
  refine funext fun (y : S2000x256.Idx) => ?_
  obtain ⟨p, q, rfl⟩ : ∃ (p : Fin 2000) (q : Fin 256), y = ix2 p q := ⟨y 0, y 1, eq_ix2 y⟩
  rw [View.read_apply]
  have hemb : ((cfg3.win 4).blk t).view.emb (ix2 p q) = (ix2 (⟨t.val * 2000 + p.val, by omega⟩ : Fin 50000) q : S50000x256.Idx) :=
    funext fun a => Fin.ext (by
      match a with
      | ⟨0, _⟩ => show win3_4.index t (0 : Fin 2) * 2000 + 1 * p.val = t.val * 2000 + p.val; rw [e0]; omega
      | ⟨1, _⟩ => show win3_4.index t (1 : Fin 2) * 256 + 1 * q.val = q.val; rw [e1]; omega)
  rw [hemb]
  show k3_pay1 (F := Ideal) (iblk3 V c 0 t) (iblk3 V c 1 t) (iblk3 V c 2 t) (iblk3 V c 3 t) (ix2 p q) = _
  refine (payload_apply (iblk3 V c 0 t) (iblk3 V c 1 t) (iblk3 V c 2 t) (iblk3 V c 3 t) p q).trans ?_
  exact entry_congr (iblk3 V c 0 t) (iblk3 V c 1 t) (iblk3 V c 2 t) (iblk3 V c 3 t)
    (V c main_v71 : FVec Ideal S50000x256 .f32) (V c main_v57 : FVec Ideal S256x256 .f32)
    (V c main_v16 : FVec Ideal S50000x1 .f32) (V c main_v72 : FVec Ideal S1x256 .f32) p ⟨t.val * 2000 + p.val, by omega⟩ q
    (fun j => read_left V c t (ix2 p j) (ix2 ⟨t.val * 2000 + p.val, by omega⟩ j) rfl rfl)
    (fun j => read_weight V c t (ix2 j q))
    (read_scale V c t (ix2 p (0 : Fin 1)) (ix2 ⟨t.val * 2000 + p.val, by omega⟩ (0 : Fin 1)) rfl rfl)
    (read_bias V c t (ix2 (0 : Fin 1) q))

/-- An index of the output array is in point t's block iff its row is among the block's 2000 rows. -/
theorem mem_blk (t : Fin cfg3.N) (i : S50000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v73).slice (win3_4.rect t)).set ↔ _
  rw [View.set_slice_whole, Rect.mem_set_unit]
  exact Iff.rfl

/-- The blocks tile the array: row r is in block r / 2000. -/
theorem cover (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  have hlt : (i 0).val / 2000 < cfg3.N := by rw [show cfg3.N = 25 from N_3]; omega
  obtain ⟨-, -, -, -, -, -, -, -, e0, e1⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, hlt⟩ (1 : Fin 2) * 256 ≤ (i 1).val
      ∧ (i 1).val < win3_4.index ⟨(i 0).val / 2000, hlt⟩ (1 : Fin 2) * 256 + 256
    rw [e1]; omega

/-- THE OUTPUT ARRAY after the region: the layer of the four arrays as the region found them. -/
theorem final (c : Dev nD) : (dat3 V c).arrAt 4 cfg3.N = result V c :=
  (dat3 V c).arrAt_eq_of_cover 4 (result V c) (fun t _ => flushed_eq V c t) cover

end Cert.KernelIdeal.Region3

end
-- ==== Proof.KernelValue.lean ====
/-
  The kernel program's result as the network of its argument arrays: the buffer contents at each of @main's segment
  boundaries, read at the buffers that matter — the arguments and the two degree norms are carried unchanged through
  every later segment, each host stretch leaves its aggregate and its layer's parameters, and each region leaves the
  fused linear layer of the four arrays it was entered with.
-/
import proofs.«150012_j26792005992869_1_alg».proof.Proof.Gen.KernelIdeal.Frame
import proofs.«150012_j26792005992869_1_alg».proof.Proof.HostGlue
import proofs.«150012_j26792005992869_1_alg».proof.Proof.Region0
import proofs.«150012_j26792005992869_1_alg».proof.Proof.Region1
import proofs.«150012_j26792005992869_1_alg».proof.Proof.Region2
import proofs.«150012_j26792005992869_1_alg».proof.Proof.Region3

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Glue Cert.FusedLinear

variable (m : (ℓ : Loc nD τ sig) → Buf (Elt Ideal) ℓ) (ρ : Dev nD → PrngReg)

/-- The network as the kernel program computes it: the encoder with the constant-one scale, then three times the
    aggregate over the edges and a fused linear layer scaled by the target norm. -/
def network (x : (⟨S50000x512, .f32⟩ : BufTy).Contents (Elt Ideal)) (src dst : (⟨S800000, .i32⟩ : BufTy).Contents (Elt Ideal))
    (ew : (⟨S512x256, .f32⟩ : BufTy).Contents (Elt Ideal)) (eb : (⟨S256, .f32⟩ : BufTy).Contents (Elt Ideal))
    (cw : (⟨S3x256x256, .f32⟩ : BufTy).Contents (Elt Ideal)) (cb : (⟨S3x256, .f32⟩ : BufTy).Contents (Elt Ideal)) : FVec Ideal S50000x256 .f32 :=
  layer
    (aggregate
      (layer
        (aggregate
          (layer (aggregate (layer x ew (onesCol (F := Ideal)) (asRow eb)) (degreeNorm src) src dst) (weightOf0 cw) (degreeNorm dst) (asRow (biasOf0 cb)))
          (degreeNorm src) src dst)
        (weightOf1 cw) (degreeNorm dst) (asRow (biasOf1 cb)))
      (degreeNorm src) src dst)
    (weightOf2 cw) (degreeNorm dst) (asRow (biasOf2 cb))

/-! ## Region 0's entry: after the first stretch -/

theorem at1_normSrc (c : Dev nD) : W1 m ρ c (Proc.devRef .tc main_v11) = degreeNorm (m ((c.tc : Thread nD τ).loc main_arg1)) := pre_normSrc (W0 m ρ c)
theorem at1_normDst (c : Dev nD) : W1 m ρ c (Proc.devRef .tc main_v16) = degreeNorm (m ((c.tc : Thread nD τ).loc main_arg2)) := pre_normDst (W0 m ρ c)
theorem at1_ones (c : Dev nD) : W1 m ρ c (Proc.devRef .tc main_v17) = (onesCol (F := Ideal)) := pre_ones (W0 m ρ c)
theorem at1_biasRow (c : Dev nD) : W1 m ρ c (Proc.devRef .tc main_v18) = asRow (m ((c.tc : Thread nD τ).loc main_arg4)) := pre_biasRow (W0 m ρ c)
theorem at1_main_arg0 (c : Dev nD) : W1 m ρ c (Proc.devRef .tc main_arg0) = (m ((c.tc : Thread nD τ).loc main_arg0)) := pre_keeps_main_arg0 (W0 m ρ c)
theorem at1_main_arg1 (c : Dev nD) : W1 m ρ c (Proc.devRef .tc main_arg1) = (m ((c.tc : Thread nD τ).loc main_arg1)) := pre_keeps_main_arg1 (W0 m ρ c)
theorem at1_main_arg2 (c : Dev nD) : W1 m ρ c (Proc.devRef .tc main_arg2) = (m ((c.tc : Thread nD τ).loc main_arg2)) := pre_keeps_main_arg2 (W0 m ρ c)
theorem at1_main_arg3 (c : Dev nD) : W1 m ρ c (Proc.devRef .tc main_arg3) = (m ((c.tc : Thread nD τ).loc main_arg3)) := pre_keeps_main_arg3 (W0 m ρ c)
theorem at1_main_arg5 (c : Dev nD) : W1 m ρ c (Proc.devRef .tc main_arg5) = (m ((c.tc : Thread nD τ).loc main_arg5)) := pre_keeps_main_arg5 (W0 m ρ c)
theorem at1_main_arg6 (c : Dev nD) : W1 m ρ c (Proc.devRef .tc main_arg6) = (m ((c.tc : Thread nD τ).loc main_arg6)) := pre_keeps_main_arg6 (W0 m ρ c)

/-! ## Region 0's exit: the encoder's output -/

theorem at2_out (c : Dev nD) : W2 m ρ c (Proc.devRef .tc main_v19) = layer (m ((c.tc : Thread nD τ).loc main_arg0)) (m ((c.tc : Thread nD τ).loc main_arg3)) (onesCol (F := Ideal)) (asRow (m ((c.tc : Thread nD τ).loc main_arg4))) := by
  refine (W2_arr m ρ c 4).trans ((Region0.final (V1 m ρ) c).trans ?_)
  show layer (W1 m ρ c (Proc.devRef .tc main_arg0)) (W1 m ρ c (Proc.devRef .tc main_arg3)) (W1 m ρ c (Proc.devRef .tc main_v17)) (W1 m ρ c (Proc.devRef .tc main_v18)) = _
  rw [at1_main_arg0, at1_main_arg3, at1_ones, at1_biasRow]
theorem at2_normSrc (c : Dev nD) : W2 m ρ c (Proc.devRef .tc main_v11) = degreeNorm (m ((c.tc : Thread nD τ).loc main_arg1)) := (W2_of_ne m ρ c main_v11 (by decide)).trans (at1_normSrc m ρ c)
theorem at2_normDst (c : Dev nD) : W2 m ρ c (Proc.devRef .tc main_v16) = degreeNorm (m ((c.tc : Thread nD τ).loc main_arg2)) := (W2_of_ne m ρ c main_v16 (by decide)).trans (at1_normDst m ρ c)
theorem at2_main_arg1 (c : Dev nD) : W2 m ρ c (Proc.devRef .tc main_arg1) = (m ((c.tc : Thread nD τ).loc main_arg1)) := (W2_of_ne m ρ c main_arg1 (by decide)).trans (at1_main_arg1 m ρ c)
theorem at2_main_arg2 (c : Dev nD) : W2 m ρ c (Proc.devRef .tc main_arg2) = (m ((c.tc : Thread nD τ).loc main_arg2)) := (W2_of_ne m ρ c main_arg2 (by decide)).trans (at1_main_arg2 m ρ c)
theorem at2_main_arg5 (c : Dev nD) : W2 m ρ c (Proc.devRef .tc main_arg5) = (m ((c.tc : Thread nD τ).loc main_arg5)) := (W2_of_ne m ρ c main_arg5 (by decide)).trans (at1_main_arg5 m ρ c)
theorem at2_main_arg6 (c : Dev nD) : W2 m ρ c (Proc.devRef .tc main_arg6) = (m ((c.tc : Thread nD τ).loc main_arg6)) := (W2_of_ne m ρ c main_arg6 (by decide)).trans (at1_main_arg6 m ρ c)

/-! ## Region 1's entry: after the stretch that aggregates the previous layer's output -/

theorem at3_aggregate (c : Dev nD) : W3 m ρ c (Proc.devRef .tc main_v35)
    = aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2)) := by
  refine (mid1_aggregate (W2 m ρ c)).trans ?_
  rw [at2_out, at2_normSrc, at2_main_arg1, at2_main_arg2]
theorem at3_weight (c : Dev nD) : W3 m ρ c (Proc.devRef .tc main_v21) = weightOf0 (m ((c.tc : Thread nD τ).loc main_arg5)) := by
  refine (mid1_weight (W2 m ρ c)).trans ?_
  rw [at2_main_arg5]
theorem at3_biasRow (c : Dev nD) : W3 m ρ c (Proc.devRef .tc main_v36) = asRow (biasOf0 (m ((c.tc : Thread nD τ).loc main_arg6))) := by
  refine (mid1_biasRow (W2 m ρ c)).trans ?_
  rw [at2_main_arg6]
theorem at3_normSrc (c : Dev nD) : W3 m ρ c (Proc.devRef .tc main_v11) = degreeNorm (m ((c.tc : Thread nD τ).loc main_arg1)) := (mid1_keeps_main_v11 (W2 m ρ c)).trans (at2_normSrc m ρ c)
theorem at3_normDst (c : Dev nD) : W3 m ρ c (Proc.devRef .tc main_v16) = degreeNorm (m ((c.tc : Thread nD τ).loc main_arg2)) := (mid1_keeps_main_v16 (W2 m ρ c)).trans (at2_normDst m ρ c)
theorem at3_main_arg1 (c : Dev nD) : W3 m ρ c (Proc.devRef .tc main_arg1) = (m ((c.tc : Thread nD τ).loc main_arg1)) := (mid1_keeps_main_arg1 (W2 m ρ c)).trans (at2_main_arg1 m ρ c)
theorem at3_main_arg2 (c : Dev nD) : W3 m ρ c (Proc.devRef .tc main_arg2) = (m ((c.tc : Thread nD τ).loc main_arg2)) := (mid1_keeps_main_arg2 (W2 m ρ c)).trans (at2_main_arg2 m ρ c)
theorem at3_main_arg5 (c : Dev nD) : W3 m ρ c (Proc.devRef .tc main_arg5) = (m ((c.tc : Thread nD τ).loc main_arg5)) := (mid1_keeps_main_arg5 (W2 m ρ c)).trans (at2_main_arg5 m ρ c)
theorem at3_main_arg6 (c : Dev nD) : W3 m ρ c (Proc.devRef .tc main_arg6) = (m ((c.tc : Thread nD τ).loc main_arg6)) := (mid1_keeps_main_arg6 (W2 m ρ c)).trans (at2_main_arg6 m ρ c)

/-! ## Region 1's exit: layer 0's output -/

theorem at4_out (c : Dev nD) : W4 m ρ c (Proc.devRef .tc main_v37)
    = layer (aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2))) (weightOf0 (m ((c.tc : Thread nD τ).loc main_arg5))) (degreeNorm (m ((c.tc : Thread nD τ).loc main_arg2))) (asRow (biasOf0 (m ((c.tc : Thread nD τ).loc main_arg6)))) := by
  refine (W4_arr m ρ c 4).trans ((Region1.final (V3 m ρ) c).trans ?_)
  show layer (W3 m ρ c (Proc.devRef .tc main_v35)) (W3 m ρ c (Proc.devRef .tc main_v21)) (W3 m ρ c (Proc.devRef .tc main_v16)) (W3 m ρ c (Proc.devRef .tc main_v36)) = _
  rw [at3_aggregate, at3_weight, at3_normDst, at3_biasRow]
theorem at4_normSrc (c : Dev nD) : W4 m ρ c (Proc.devRef .tc main_v11) = degreeNorm (m ((c.tc : Thread nD τ).loc main_arg1)) := (W4_of_ne m ρ c main_v11 (by decide)).trans (at3_normSrc m ρ c)
theorem at4_normDst (c : Dev nD) : W4 m ρ c (Proc.devRef .tc main_v16) = degreeNorm (m ((c.tc : Thread nD τ).loc main_arg2)) :=
  ((W4_arr m ρ c 2).trans (((dat1 (V3 m ρ) c).arrAt_in 2 rfl _).trans (A_eq1 (V3 m ρ) c 2))).trans (at3_normDst m ρ c)
theorem at4_main_arg1 (c : Dev nD) : W4 m ρ c (Proc.devRef .tc main_arg1) = (m ((c.tc : Thread nD τ).loc main_arg1)) := (W4_of_ne m ρ c main_arg1 (by decide)).trans (at3_main_arg1 m ρ c)
theorem at4_main_arg2 (c : Dev nD) : W4 m ρ c (Proc.devRef .tc main_arg2) = (m ((c.tc : Thread nD τ).loc main_arg2)) := (W4_of_ne m ρ c main_arg2 (by decide)).trans (at3_main_arg2 m ρ c)
theorem at4_main_arg5 (c : Dev nD) : W4 m ρ c (Proc.devRef .tc main_arg5) = (m ((c.tc : Thread nD τ).loc main_arg5)) := (W4_of_ne m ρ c main_arg5 (by decide)).trans (at3_main_arg5 m ρ c)
theorem at4_main_arg6 (c : Dev nD) : W4 m ρ c (Proc.devRef .tc main_arg6) = (m ((c.tc : Thread nD τ).loc main_arg6)) := (W4_of_ne m ρ c main_arg6 (by decide)).trans (at3_main_arg6 m ρ c)

/-! ## Region 2's entry: after the stretch that aggregates the previous layer's output -/

theorem at5_aggregate (c : Dev nD) : W5 m ρ c (Proc.devRef .tc main_v53)
    = aggregate (layer (aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2))) (weightOf0 (m ((c.tc : Thread nD τ).loc main_arg5))) (degreeNorm (m ((c.tc : Thread nD τ).loc main_arg2))) (asRow (biasOf0 (m ((c.tc : Thread nD τ).loc main_arg6))))) (degreeNorm (m ((c.tc : Thread nD τ).loc main_arg1))) (m ((c.tc : Thread nD τ).loc main_arg1)) (m ((c.tc : Thread nD τ).loc main_arg2)) := by
  refine (mid2_aggregate (W4 m ρ c)).trans ?_
  rw [at4_out, at4_normSrc, at4_main_arg1, at4_main_arg2]
theorem at5_weight (c : Dev nD) : W5 m ρ c (Proc.devRef .tc main_v39) = weightOf1 (m ((c.tc : Thread nD τ).loc main_arg5)) := by
  refine (mid2_weight (W4 m ρ c)).trans ?_
  rw [at4_main_arg5]
theorem at5_biasRow (c : Dev nD) : W5 m ρ c (Proc.devRef .tc main_v54) = asRow (biasOf1 (m ((c.tc : Thread nD τ).loc main_arg6))) := by
  refine (mid2_biasRow (W4 m ρ c)).trans ?_
  rw [at4_main_arg6]
theorem at5_normSrc (c : Dev nD) : W5 m ρ c (Proc.devRef .tc main_v11) = degreeNorm (m ((c.tc : Thread nD τ).loc main_arg1)) := (mid2_keeps_main_v11 (W4 m ρ c)).trans (at4_normSrc m ρ c)
theorem at5_normDst (c : Dev nD) : W5 m ρ c (Proc.devRef .tc main_v16) = degreeNorm (m ((c.tc : Thread nD τ).loc main_arg2)) := (mid2_keeps_main_v16 (W4 m ρ c)).trans (at4_normDst m ρ c)
theorem at5_main_arg1 (c : Dev nD) : W5 m ρ c (Proc.devRef .tc main_arg1) = (m ((c.tc : Thread nD τ).loc main_arg1)) := (mid2_keeps_main_arg1 (W4 m ρ c)).trans (at4_main_arg1 m ρ c)
theorem at5_main_arg2 (c : Dev nD) : W5 m ρ c (Proc.devRef .tc main_arg2) = (m ((c.tc : Thread nD τ).loc main_arg2)) := (mid2_keeps_main_arg2 (W4 m ρ c)).trans (at4_main_arg2 m ρ c)
theorem at5_main_arg5 (c : Dev nD) : W5 m ρ c (Proc.devRef .tc main_arg5) = (m ((c.tc : Thread nD τ).loc main_arg5)) := (mid2_keeps_main_arg5 (W4 m ρ c)).trans (at4_main_arg5 m ρ c)
theorem at5_main_arg6 (c : Dev nD) : W5 m ρ c (Proc.devRef .tc main_arg6) = (m ((c.tc : Thread nD τ).loc main_arg6)) := (mid2_keeps_main_arg6 (W4 m ρ c)).trans (at4_main_arg6 m ρ c)

/-! ## Region 2's exit: layer 1's output -/

theorem at6_out (c : Dev nD) : W6 m ρ c (Proc.devRef .tc main_v55)
    = layer (aggregate (layer (aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2))) (weightOf0 (m ((c.tc : Thread nD τ).loc main_arg5))) (degreeNorm (m ((c.tc : Thread nD τ).loc main_arg2))) (asRow (biasOf0 (m ((c.tc : Thread nD τ).loc main_arg6))))) (degreeNorm (m ((c.tc : Thread nD τ).loc main_arg1))) (m ((c.tc : Thread nD τ).loc main_arg1)) (m ((c.tc : Thread nD τ).loc main_arg2))) (weightOf1 (m ((c.tc : Thread nD τ).loc main_arg5))) (degreeNorm (m ((c.tc : Thread nD τ).loc main_arg2))) (asRow (biasOf1 (m ((c.tc : Thread nD τ).loc main_arg6)))) := by
  refine (W6_arr m ρ c 4).trans ((Region2.final (V5 m ρ) c).trans ?_)
  show layer (W5 m ρ c (Proc.devRef .tc main_v53)) (W5 m ρ c (Proc.devRef .tc main_v39)) (W5 m ρ c (Proc.devRef .tc main_v16)) (W5 m ρ c (Proc.devRef .tc main_v54)) = _
  rw [at5_aggregate, at5_weight, at5_normDst, at5_biasRow]
theorem at6_normSrc (c : Dev nD) : W6 m ρ c (Proc.devRef .tc main_v11) = degreeNorm (m ((c.tc : Thread nD τ).loc main_arg1)) := (W6_of_ne m ρ c main_v11 (by decide)).trans (at5_normSrc m ρ c)
theorem at6_normDst (c : Dev nD) : W6 m ρ c (Proc.devRef .tc main_v16) = degreeNorm (m ((c.tc : Thread nD τ).loc main_arg2)) :=
  ((W6_arr m ρ c 2).trans (((dat2 (V5 m ρ) c).arrAt_in 2 rfl _).trans (A_eq2 (V5 m ρ) c 2))).trans (at5_normDst m ρ c)
theorem at6_main_arg1 (c : Dev nD) : W6 m ρ c (Proc.devRef .tc main_arg1) = (m ((c.tc : Thread nD τ).loc main_arg1)) := (W6_of_ne m ρ c main_arg1 (by decide)).trans (at5_main_arg1 m ρ c)
theorem at6_main_arg2 (c : Dev nD) : W6 m ρ c (Proc.devRef .tc main_arg2) = (m ((c.tc : Thread nD τ).loc main_arg2)) := (W6_of_ne m ρ c main_arg2 (by decide)).trans (at5_main_arg2 m ρ c)
theorem at6_main_arg5 (c : Dev nD) : W6 m ρ c (Proc.devRef .tc main_arg5) = (m ((c.tc : Thread nD τ).loc main_arg5)) := (W6_of_ne m ρ c main_arg5 (by decide)).trans (at5_main_arg5 m ρ c)
theorem at6_main_arg6 (c : Dev nD) : W6 m ρ c (Proc.devRef .tc main_arg6) = (m ((c.tc : Thread nD τ).loc main_arg6)) := (W6_of_ne m ρ c main_arg6 (by decide)).trans (at5_main_arg6 m ρ c)

/-! ## Region 3's entry: after the stretch that aggregates the previous layer's output -/

theorem at7_aggregate (c : Dev nD) : W7 m ρ c (Proc.devRef .tc main_v71)
    = aggregate (layer (aggregate (layer (aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2))) (weightOf0 (m ((c.tc : Thread nD τ).loc main_arg5))) (degreeNorm (m ((c.tc : Thread nD τ).loc main_arg2))) (asRow (biasOf0 (m ((c.tc : Thread nD τ).loc main_arg6))))) (degreeNorm (m ((c.tc : Thread nD τ).loc main_arg1))) (m ((c.tc : Thread nD τ).loc main_arg1)) (m ((c.tc : Thread nD τ).loc main_arg2))) (weightOf1 (m ((c.tc : Thread nD τ).loc main_arg5))) (degreeNorm (m ((c.tc : Thread nD τ).loc main_arg2))) (asRow (biasOf1 (m ((c.tc : Thread nD τ).loc main_arg6))))) (degreeNorm (m ((c.tc : Thread nD τ).loc main_arg1))) (m ((c.tc : Thread nD τ).loc main_arg1)) (m ((c.tc : Thread nD τ).loc main_arg2)) := by
  refine (mid3_aggregate (W6 m ρ c)).trans ?_
  rw [at6_out, at6_normSrc, at6_main_arg1, at6_main_arg2]
theorem at7_weight (c : Dev nD) : W7 m ρ c (Proc.devRef .tc main_v57) = weightOf2 (m ((c.tc : Thread nD τ).loc main_arg5)) := by
  refine (mid3_weight (W6 m ρ c)).trans ?_
  rw [at6_main_arg5]
theorem at7_biasRow (c : Dev nD) : W7 m ρ c (Proc.devRef .tc main_v72) = asRow (biasOf2 (m ((c.tc : Thread nD τ).loc main_arg6))) := by
  refine (mid3_biasRow (W6 m ρ c)).trans ?_
  rw [at6_main_arg6]
theorem at7_normSrc (c : Dev nD) : W7 m ρ c (Proc.devRef .tc main_v11) = degreeNorm (m ((c.tc : Thread nD τ).loc main_arg1)) := (mid3_keeps_main_v11 (W6 m ρ c)).trans (at6_normSrc m ρ c)
theorem at7_normDst (c : Dev nD) : W7 m ρ c (Proc.devRef .tc main_v16) = degreeNorm (m ((c.tc : Thread nD τ).loc main_arg2)) := (mid3_keeps_main_v16 (W6 m ρ c)).trans (at6_normDst m ρ c)
theorem at7_main_arg1 (c : Dev nD) : W7 m ρ c (Proc.devRef .tc main_arg1) = (m ((c.tc : Thread nD τ).loc main_arg1)) := (mid3_keeps_main_arg1 (W6 m ρ c)).trans (at6_main_arg1 m ρ c)
theorem at7_main_arg2 (c : Dev nD) : W7 m ρ c (Proc.devRef .tc main_arg2) = (m ((c.tc : Thread nD τ).loc main_arg2)) := (mid3_keeps_main_arg2 (W6 m ρ c)).trans (at6_main_arg2 m ρ c)
theorem at7_main_arg5 (c : Dev nD) : W7 m ρ c (Proc.devRef .tc main_arg5) = (m ((c.tc : Thread nD τ).loc main_arg5)) := (mid3_keeps_main_arg5 (W6 m ρ c)).trans (at6_main_arg5 m ρ c)
theorem at7_main_arg6 (c : Dev nD) : W7 m ρ c (Proc.devRef .tc main_arg6) = (m ((c.tc : Thread nD τ).loc main_arg6)) := (mid3_keeps_main_arg6 (W6 m ρ c)).trans (at6_main_arg6 m ρ c)

/-! ## Region 3's exit: layer 2's output -/

theorem at8_out (c : Dev nD) : W8 m ρ c (Proc.devRef .tc main_v73)
    = layer (aggregate (layer (aggregate (layer (aggregate (layer (m ((c.tc : Thread nD τ).loc main_arg0)) (m ((c.tc : Thread nD τ).loc main_arg3)) (onesCol (F := Ideal)) (asRow (m ((c.tc : Thread nD τ).loc main_arg4)))) (degreeNorm (m ((c.tc : Thread nD τ).loc main_arg1))) (m ((c.tc : Thread nD τ).loc main_arg1)) (m ((c.tc : Thread nD τ).loc main_arg2))) (weightOf0 (m ((c.tc : Thread nD τ).loc main_arg5))) (degreeNorm (m ((c.tc : Thread nD τ).loc main_arg2))) (asRow (biasOf0 (m ((c.tc : Thread nD τ).loc main_arg6))))) (degreeNorm (m ((c.tc : Thread nD τ).loc main_arg1))) (m ((c.tc : Thread nD τ).loc main_arg1)) (m ((c.tc : Thread nD τ).loc main_arg2))) (weightOf1 (m ((c.tc : Thread nD τ).loc main_arg5))) (degreeNorm (m ((c.tc : Thread nD τ).loc main_arg2))) (asRow (biasOf1 (m ((c.tc : Thread nD τ).loc main_arg6))))) (degreeNorm (m ((c.tc : Thread nD τ).loc main_arg1))) (m ((c.tc : Thread nD τ).loc main_arg1)) (m ((c.tc : Thread nD τ).loc main_arg2))) (weightOf2 (m ((c.tc : Thread nD τ).loc main_arg5))) (degreeNorm (m ((c.tc : Thread nD τ).loc main_arg2))) (asRow (biasOf2 (m ((c.tc : Thread nD τ).loc main_arg6)))) := by
  refine (W8_arr m ρ c 4).trans ((Region3.final (V7 m ρ) c).trans ?_)
  show layer (W7 m ρ c (Proc.devRef .tc main_v71)) (W7 m ρ c (Proc.devRef .tc main_v57)) (W7 m ρ c (Proc.devRef .tc main_v16)) (W7 m ρ c (Proc.devRef .tc main_v72)) = _
  rw [at7_aggregate, at7_weight, at7_normDst, at7_biasRow]

/-- THE RESULT BUFFER at the last boundary is the network of the argument arrays. -/
theorem result_eq (c : Dev nD) : W8 m ρ c (Proc.devRef .tc main_v73)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  at8_out m ρ c

end Cert.KernelIdeal.Whole

end
-- ==== Proof.RefNest.lean ====
/-
  The reference's result as a nest of named functions: its run's term is the encoder, then three times "aggregate
  over the edges, then a linear layer", over the two degree norms — the same functions of arrays the kernel program's
  host side applies, in the reference's own spelling.
-/
import proofs.«150012_j26792005992869_1_alg».proof.Proof.Gen.ReferenceIdeal.Run

noncomputable section

namespace Cert.ReferenceIdeal.Nest

open Idealize.ShloMosaic Idealize.ShloMosaic.TcCoe Idealize.SL.Sem Idealize.ShloMosaic.StableHlo
open Cert.ReferenceIdeal Cert.ReferenceIdeal.Gen

variable {F : FTy → Type} [FloatOps F]

/-- max(degree, 1)^(-1/2) as a column: the degree of node n counts the edges whose endpoint `idx` is n. -/
def degreeNorm (idx : (⟨S800000, .i32⟩ : BufTy).Contents (Elt F)) : (⟨S50000x1, .f32⟩ : BufTy).Contents (Elt F) :=
  broadcastInDim S50000x1 ![0] bcast_S50000_S50000x1_0
    (Host.powf
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 idx)
          (broadcastInDim S800000 ![] bcast_S_S800000 (constant S_ .f32 0x3F800000#32)))
        (broadcastInDim S50000 ![] bcast_S_S50000 (constant S_ .f32 0x3F800000#32)))
      (broadcastInDim S50000 ![] bcast_S_S50000 (constant S_ .f32 0xBF000000#32)))

/-- The messages h · ns gathered along the edges' sources and summed at the edges' targets. -/
def aggregate (h : (⟨S50000x256, .f32⟩ : BufTy).Contents (Elt F)) (ns : (⟨S50000x1, .f32⟩ : BufTy).Contents (Elt F))
    (src dst : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256
      (mulf h (broadcastInDim S50000x256 ![0, 1] bcast_S50000x1_S50000x256_0_1 ns))
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Layer 0's weight matrix and bias vector out of the stacked parameters. -/
def weightOf0 (cw : (⟨S3x256x256, .f32⟩ : BufTy).Contents (Elt F)) : (⟨S256x256, .f32⟩ : BufTy).Contents (Elt F) :=
  shapeCast S256x256 (extractStridedSlice S1x256x256 ![0, 0, 0] cw slices_S3x256x256_S1x256x256_0_0_0) shapeCasts_S1x256x256_S256x256
def biasOf0 (cb : (⟨S3x256, .f32⟩ : BufTy).Contents (Elt F)) : (⟨S256, .f32⟩ : BufTy).Contents (Elt F) :=
  shapeCast S256 (extractStridedSlice S1x256 ![0, 0] cb slices_S3x256_S1x256_0_0) shapeCasts_S1x256_S256

/-- Layer 1's weight matrix and bias vector out of the stacked parameters. -/
def weightOf1 (cw : (⟨S3x256x256, .f32⟩ : BufTy).Contents (Elt F)) : (⟨S256x256, .f32⟩ : BufTy).Contents (Elt F) :=
  shapeCast S256x256 (extractStridedSlice S1x256x256 ![1, 0, 0] cw slices_S3x256x256_S1x256x256_1_0_0) shapeCasts_S1x256x256_S256x256
def biasOf1 (cb : (⟨S3x256, .f32⟩ : BufTy).Contents (Elt F)) : (⟨S256, .f32⟩ : BufTy).Contents (Elt F) :=
  shapeCast S256 (extractStridedSlice S1x256 ![1, 0] cb slices_S3x256_S1x256_1_0) shapeCasts_S1x256_S256

/-- Layer 2's weight matrix and bias vector out of the stacked parameters. -/
def weightOf2 (cw : (⟨S3x256x256, .f32⟩ : BufTy).Contents (Elt F)) : (⟨S256x256, .f32⟩ : BufTy).Contents (Elt F) :=
  shapeCast S256x256 (extractStridedSlice S1x256x256 ![2, 0, 0] cw slices_S3x256x256_S1x256x256_2_0_0) shapeCasts_S1x256x256_S256x256
def biasOf2 (cb : (⟨S3x256, .f32⟩ : BufTy).Contents (Elt F)) : (⟨S256, .f32⟩ : BufTy).Contents (Elt F) :=
  shapeCast S256 (extractStridedSlice S1x256 ![2, 0] cb slices_S3x256_S1x256_2_0) shapeCasts_S1x256_S256

/-- The reference's encoder: relu(x · W + b). -/
def hostEncoder (x : (⟨S50000x512, .f32⟩ : BufTy).Contents (Elt F)) (w : (⟨S512x256, .f32⟩ : BufTy).Contents (Elt F)) (b : (⟨S256, .f32⟩ : BufTy).Contents (Elt F)) : (⟨S50000x256, .f32⟩ : BufTy).Contents (Elt F) :=
  maximumf
    (addf (Host.dotGeneral dot_S50000x512_S512x256_S50000x256_1_0_0_1_n_n none x w)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The reference's layer: relu((a · W) · s + b), the scale a column, the bias a vector. -/
def hostLayer (a : (⟨S50000x256, .f32⟩ : BufTy).Contents (Elt F)) (w : (⟨S256x256, .f32⟩ : BufTy).Contents (Elt F)) (s : (⟨S50000x1, .f32⟩ : BufTy).Contents (Elt F)) (b : (⟨S256, .f32⟩ : BufTy).Contents (Elt F)) : (⟨S50000x256, .f32⟩ : BufTy).Contents (Elt F) :=
  maximumf
    (addf
      (mulf (Host.dotGeneral dot_S50000x256_S256x256_S50000x256_1_0_0_1_n_n none a w)
        (broadcastInDim S50000x256 ![0, 1] bcast_S50000x1_S50000x256_0_1 s))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The whole network on the host. -/
def network (x : (⟨S50000x512, .f32⟩ : BufTy).Contents (Elt F)) (src dst : (⟨S800000, .i32⟩ : BufTy).Contents (Elt F)) (ew : (⟨S512x256, .f32⟩ : BufTy).Contents (Elt F))
    (eb : (⟨S256, .f32⟩ : BufTy).Contents (Elt F)) (cw : (⟨S3x256x256, .f32⟩ : BufTy).Contents (Elt F)) (cb : (⟨S3x256, .f32⟩ : BufTy).Contents (Elt F)) : (⟨S50000x256, .f32⟩ : BufTy).Contents (Elt F) :=
  hostLayer
    (aggregate
      (hostLayer
        (aggregate
          (hostLayer (aggregate (hostEncoder x ew eb) (degreeNorm src) src dst) (weightOf0 cw) (degreeNorm dst) (biasOf0 cb))
          (degreeNorm src) src dst)
        (weightOf1 cw) (degreeNorm dst) (biasOf1 cb))
      (degreeNorm src) src dst)
    (weightOf2 cw) (degreeNorm dst) (biasOf2 cb)

set_option maxRecDepth 8192 in
set_option maxHeartbeats 4000000 in
/-- The run's result term is the network of the argument arrays. -/
theorem result_eq (m : (ℓ : Loc nD τ sig) → Buf (Elt F) ℓ) (c : Dev nD) :
    Cert.ReferenceIdeal.Value.res_main_v90 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v90
  rfl

end Cert.ReferenceIdeal.Nest

end
-- ==== Proof.Bridge.lean ====
/-
  The two programs compute one function. The reference's layer relu((a · W) · s + b) and its encoder relu(x · W + b)
  are the fused linear layer (the encoder's with the constant-one scale); the host functions around them — the degree
  norms, the gather-and-sum over the edges, the slices of the stacked parameters — are spelt identically in both
  programs; so the reference's network of the argument arrays is the kernel program's.
-/
import proofs.«150012_j26792005992869_1_alg».proof.Proof.RefNest
import proofs.«150012_j26792005992869_1_alg».proof.Proof.KernelValue

noncomputable section

namespace Cert.Bridge.Network

open Idealize.ShloMosaic Idealize.ShloMosaic.TcCoe Idealize.SL.Sem

/-- The reference's layer is the fused linear layer, its bias vector laid out as a row. -/
theorem hostLayer_eq (a : (⟨Cert.ReferenceIdeal.S50000x256, .f32⟩ : BufTy).Contents (Elt Ideal)) (w : (⟨Cert.ReferenceIdeal.S256x256, .f32⟩ : BufTy).Contents (Elt Ideal))
    (s : (⟨Cert.ReferenceIdeal.S50000x1, .f32⟩ : BufTy).Contents (Elt Ideal)) (b : (⟨Cert.ReferenceIdeal.S256, .f32⟩ : BufTy).Contents (Elt Ideal)) :
    Cert.ReferenceIdeal.Nest.hostLayer (F := Ideal) a w s b = Cert.FusedLinear.layer a w s (Cert.KernelIdeal.Glue.asRow (F := Ideal) b) := by
  unfold Cert.ReferenceIdeal.Nest.hostLayer Cert.KernelIdeal.Glue.asRow
  rw [Cert.FusedLinear.row_forms Cert.ReferenceIdeal.Facts₀.bcast_S256_S1x256_1 Cert.KernelIdeal.Facts₀.shapeCasts_S256_S1x256 b]
  exact Cert.FusedLinear.host_layer Cert.ReferenceIdeal.dot_S50000x256_S256x256_S50000x256_1_0_0_1_n_n.wf
    Cert.ReferenceIdeal.Facts₀.bcast_S50000x1_S50000x256_0_1 Cert.ReferenceIdeal.Facts₀.bcast_S1x256_S50000x256_0_1 Cert.ReferenceIdeal.Facts₀.bcast_S_S50000x256 a w s _

/-- The reference's encoder is the fused linear layer with the constant-one scale. -/
theorem hostEncoder_eq (x : (⟨Cert.ReferenceIdeal.S50000x512, .f32⟩ : BufTy).Contents (Elt Ideal)) (w : (⟨Cert.ReferenceIdeal.S512x256, .f32⟩ : BufTy).Contents (Elt Ideal)) (b : (⟨Cert.ReferenceIdeal.S256, .f32⟩ : BufTy).Contents (Elt Ideal)) :
    Cert.ReferenceIdeal.Nest.hostEncoder (F := Ideal) x w b
      = Cert.FusedLinear.layer x w (Cert.KernelIdeal.Glue.onesCol (F := Ideal)) (Cert.KernelIdeal.Glue.asRow (F := Ideal) b) := by
  unfold Cert.ReferenceIdeal.Nest.hostEncoder Cert.KernelIdeal.Glue.asRow Cert.KernelIdeal.Glue.onesCol
  rw [Cert.FusedLinear.row_forms Cert.ReferenceIdeal.Facts₀.bcast_S256_S1x256_1 Cert.KernelIdeal.Facts₀.shapeCasts_S256_S1x256 b]
  exact Cert.FusedLinear.host_encoder Cert.ReferenceIdeal.dot_S50000x512_S512x256_S50000x256_1_0_0_1_n_n.wf
    Cert.ReferenceIdeal.Facts₀.bcast_S1x256_S50000x256_0_1 Cert.ReferenceIdeal.Facts₀.bcast_S_S50000x256 Cert.KernelIdeal.Facts₀.bcast_S_S50000x1 x w _

/-- The host functions around the layers are the same functions in both programs' spellings. -/
theorem degreeNorm_eq (idx : (⟨Cert.ReferenceIdeal.S800000, .i32⟩ : BufTy).Contents (Elt Ideal)) :
    Cert.ReferenceIdeal.Nest.degreeNorm (F := Ideal) idx = Cert.KernelIdeal.Glue.degreeNorm (F := Ideal) idx := rfl
theorem aggregate_eq (h : (⟨Cert.ReferenceIdeal.S50000x256, .f32⟩ : BufTy).Contents (Elt Ideal)) (ns : (⟨Cert.ReferenceIdeal.S50000x1, .f32⟩ : BufTy).Contents (Elt Ideal)) (src dst : (⟨Cert.ReferenceIdeal.S800000, .i32⟩ : BufTy).Contents (Elt Ideal)) :
    Cert.ReferenceIdeal.Nest.aggregate (F := Ideal) h ns src dst = Cert.KernelIdeal.Glue.aggregate (F := Ideal) h ns src dst := rfl
theorem weightOf0_eq (cw : (⟨Cert.ReferenceIdeal.S3x256x256, .f32⟩ : BufTy).Contents (Elt Ideal)) : Cert.ReferenceIdeal.Nest.weightOf0 (F := Ideal) cw = Cert.KernelIdeal.Glue.weightOf0 (F := Ideal) cw := rfl
theorem weightOf1_eq (cw : (⟨Cert.ReferenceIdeal.S3x256x256, .f32⟩ : BufTy).Contents (Elt Ideal)) : Cert.ReferenceIdeal.Nest.weightOf1 (F := Ideal) cw = Cert.KernelIdeal.Glue.weightOf1 (F := Ideal) cw := rfl
theorem weightOf2_eq (cw : (⟨Cert.ReferenceIdeal.S3x256x256, .f32⟩ : BufTy).Contents (Elt Ideal)) : Cert.ReferenceIdeal.Nest.weightOf2 (F := Ideal) cw = Cert.KernelIdeal.Glue.weightOf2 (F := Ideal) cw := rfl
theorem biasOf0_eq (cb : (⟨Cert.ReferenceIdeal.S3x256, .f32⟩ : BufTy).Contents (Elt Ideal)) : Cert.ReferenceIdeal.Nest.biasOf0 (F := Ideal) cb = Cert.KernelIdeal.Glue.biasOf0 (F := Ideal) cb := rfl
theorem biasOf1_eq (cb : (⟨Cert.ReferenceIdeal.S3x256, .f32⟩ : BufTy).Contents (Elt Ideal)) : Cert.ReferenceIdeal.Nest.biasOf1 (F := Ideal) cb = Cert.KernelIdeal.Glue.biasOf1 (F := Ideal) cb := rfl
theorem biasOf2_eq (cb : (⟨Cert.ReferenceIdeal.S3x256, .f32⟩ : BufTy).Contents (Elt Ideal)) : Cert.ReferenceIdeal.Nest.biasOf2 (F := Ideal) cb = Cert.KernelIdeal.Glue.biasOf2 (F := Ideal) cb := rfl

/-- THE TWO NETWORKS are one function of the argument arrays. -/
theorem network_eq (x : (⟨Cert.ReferenceIdeal.S50000x512, .f32⟩ : BufTy).Contents (Elt Ideal)) (src dst : (⟨Cert.ReferenceIdeal.S800000, .i32⟩ : BufTy).Contents (Elt Ideal)) (ew : (⟨Cert.ReferenceIdeal.S512x256, .f32⟩ : BufTy).Contents (Elt Ideal))
    (eb : (⟨Cert.ReferenceIdeal.S256, .f32⟩ : BufTy).Contents (Elt Ideal)) (cw : (⟨Cert.ReferenceIdeal.S3x256x256, .f32⟩ : BufTy).Contents (Elt Ideal)) (cb : (⟨Cert.ReferenceIdeal.S3x256, .f32⟩ : BufTy).Contents (Elt Ideal)) :
    Cert.ReferenceIdeal.Nest.network (F := Ideal) x src dst ew eb cw cb = Cert.KernelIdeal.Whole.network x src dst ew eb cw cb := by
  unfold Cert.ReferenceIdeal.Nest.network Cert.KernelIdeal.Whole.network
  rw [hostLayer_eq, hostLayer_eq, hostLayer_eq, hostEncoder_eq]
  simp only [degreeNorm_eq, aggregate_eq, weightOf0_eq, weightOf1_eq, weightOf2_eq, biasOf0_eq, biasOf1_eq, biasOf2_eq]

end Cert.Bridge.Network

end
-- ==== Proof.lean ====
/-
  A three-layer graph convolution network with a linear encoder, over 50000 nodes and 800000 edges. The kernel program
  computes each dense step — a matrix product, a row scale, a bias, a clamp at zero — in a pipelined region over blocks
  of 2000 rows, and leaves the degree norms and the gather-and-sum over the edges to the host; the reference computes
  everything on the host. Over the extended reals both end at one function of the argument arrays
  (Proof/Bridge.lean): a region's output array is the fused linear layer of the arrays it was entered with
  (Proof/Region0.lean … Region3.lean over Proof/LinearSpec.lean), the host side between the regions is the reference's own
  (Proof/HostGlue.lean, Proof/RefNest.lean), and the encoder's extra factor is the constant 1. Nothing is asked of the
  inputs: the precondition is never opened, since x · 1 = x and the shared host functions hold for every extended real.
  The idealization rewrote nothing, so `preserves` is `True`.
-/
import proofs.«150012_j26792005992869_1_alg».proof.Defs
import proofs.«150012_j26792005992869_1_alg».proof.Proof.Gen.Kernel
import proofs.«150012_j26792005992869_1_alg».proof.Proof.Gen.Kernel.Frame
import proofs.«150012_j26792005992869_1_alg».proof.Proof.Gen.KernelIdeal
import proofs.«150012_j26792005992869_1_alg».proof.Proof.Gen.KernelIdeal.Frame
import proofs.«150012_j26792005992869_1_alg».proof.Proof.Gen.ReferenceIdeal
import proofs.«150012_j26792005992869_1_alg».proof.Proof.Gen.ReferenceIdeal.Run
import proofs.«150012_j26792005992869_1_alg».proof.Proof.Gen.Pre_finite_inputs
import proofs.«150012_j26792005992869_1_alg».proof.Proof.KernelRun
import proofs.«150012_j26792005992869_1_alg».proof.Proof.KernelValue
import proofs.«150012_j26792005992869_1_alg».proof.Proof.RefNest
import proofs.«150012_j26792005992869_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the argument arrays, which agree. -/
theorem algebraic : Cert.algebraic_KernelIdeal_ReferenceIdeal := by
  intro m ρ m' ρ' _ hagree
  refine ⟨fun c => Cert.KernelIdeal.Whole.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.Whole.run_final (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Nest.result_eq, Cert.Bridge.Network.network_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
